-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x128 : Shape := ⟨3, ![4096, 2, 128]⟩
abbrev S768x256 : Shape := ⟨2, ![768, 256]⟩
abbrev S768 : Shape := ⟨1, ![768]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S4096x2x128 : S_.BroadcastsInDim S4096x2x128 (![] : Fin 0 → Fin S4096x2x128.rank)
  reducesTo_S4096x2x128_S_d0_1_2 : S4096x2x128.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x256 .f32) (main_arg8 : FVec F S1 .f32) (main_v33 : IVec S_ 1) : IVec S_ 1 :=
  let main_v34 : FVec F S1x256 .f32 := Host.absf main_arg7
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S768 .f32) (main_arg5 : FVec F S256x256 .f32) (main_arg6 : FVec F S256 .f32) (main_arg7 : FVec F S1x256 .f32) (main_arg8 : FVec F S1 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4096x2x128 .f32) (main_arg1 : FVec F S768x256 .f32) (main_arg2 : FVec F S768x256 .f32) (main_arg3 : FVec F S768 .f32) (main_arg4 : FVec F S768 .f32) (main_arg5 : FVec F S256x256 .f32) (main_arg6 : FVec F S256 .f32) (main_arg7 : FVec F S1x256 .f32) (main_arg8 : FVec F S1 .f32) : IVec S_ 1 :=
  let main_v0 : FVec F S4096x2x128 .f32 := Host.absf main_arg0
  let main_cst : FVec F S_ .f32 := constant S_ .f32 0x7F800000#32
  let main_v1 : FVec F S4096x2x128 .f32 := broadcastInDim S4096x2x128 ![] bcast_S_S4096x2x128 main_cst
  let main_v2 : IVec S4096x2x128 1 := cmpf .olt main_v0 main_v1
  let main_c : IVec S_ 1 := constantI S_ 1 1#1
  let main_v3 : IVec S_ 1 := (fun x v => Host.reduce IntOp.andi x v reducesTo_S4096x2x128_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_v13 main_v16
-- ==== Kernel.lean ====
abbrev S4096x2x128 : Shape := ⟨3, ![4096, 2, 128]⟩
abbrev S768x256 : Shape := ⟨2, ![768, 256]⟩
abbrev S768 : Shape := ⟨1, ![768]⟩
abbrev S256x256 : Shape := ⟨2, ![256, 256]⟩
abbrev S256 : Shape := ⟨1, ![256]⟩
abbrev S1x256 : Shape := ⟨2, ![1, 256]⟩
abbrev S1 : Shape := ⟨1, ![1]⟩
abbrev S4096x256 : Shape := ⟨2, ![4096, 256]⟩
abbrev S1x768 : Shape := ⟨2, ![1, 768]⟩
abbrev S1x1 : Shape := ⟨2, ![1, 1]⟩
abbrev S4096x1 : Shape := ⟨2, ![4096, 1]⟩
abbrev S1024x256 : Shape := ⟨2, ![1024, 256]⟩
abbrev S1024x1 : Shape := ⟨2, ![1024, 1]⟩
abbrev S768x128 : Shape := ⟨2, ![768, 128]⟩
abbrev S512x256 : Shape := ⟨2, ![512, 256]⟩
abbrev S1x512 : Shape := ⟨2, ![1, 512]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 15
  | .vmem => 12
  | .smem => 0
  | _ => 0

abbrev bufTy : (tb : Table) → Fin (tcTables nBuf tb) → BufTy
  | .hbm, ⟨0, _⟩ => ⟨S4096x2x128, .f32⟩
  | .hbm, ⟨1, _⟩ => ⟨S768x256, .f32⟩
  | .hbm, ⟨2, _⟩ => ⟨S768x256, .f32⟩
  | .hbm, ⟨3, _⟩ => ⟨S768, .f32⟩
  | .hbm, ⟨4, _⟩ => ⟨S768, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1, .f32⟩
  | .hbm, ⟨9, _⟩ => ⟨S4096x256, .f32⟩
  | .hbm, ⟨10, _⟩ => ⟨S1x768, .f32⟩
  | .hbm, ⟨11, _⟩ => ⟨S1x768, .f32⟩
  | .hbm, ⟨12, _⟩ => ⟨S1x256, .f32⟩
  | .hbm, ⟨13, _⟩ => ⟨S1x1, .f32⟩
  | .hbm, ⟨14, _⟩ => ⟨S4096x1, .f32⟩
  | .local _ .vmem, ⟨0, _⟩ => ⟨S1024x256, .f32⟩
  | .local _ .vmem, ⟨1, _⟩ => ⟨S1024x256, .f32⟩
  | .local _ .vmem, ⟨2, _⟩ => ⟨S768x256, .f32⟩
  | .local _ .vmem, ⟨3, _⟩ => ⟨S768x256, .f32⟩
  | .local _ .vmem, ⟨4, _⟩ => ⟨S1x768, .f32⟩
  | .local _ .vmem, ⟨5, _⟩ => ⟨S1x768, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S1024x1, .f32⟩
  | .local _ .vmem, ⟨11, _⟩ => ⟨S1024x1, .f32⟩
  | _, _ => ⟨S4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4096x2x128_S4096x256 : S4096x2x128.ShapeCasts S4096x256
  shapeCasts_S768_S1x768 : S768.ShapeCasts S1x768
  shapeCasts_S256_S1x256 : S256.ShapeCasts S1x256
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S768x256_S768x256_0_0 : ∀ a, (![0, 0] : Fin 2 → Nat) a + S768x256.size a ≤ S768x256.size a
  h_S768x256 : 0 < S768x256.numel
  slices_S768x256_o0_128_S768x128 : S768x256.Slices ![0, 128] S768x128
  slices_S768x256_o0_0_S768x128 : S768x256.Slices ![0, 0] S768x128
  concatenates_S768x128_S768x128_S768x256_d1 : Shape.Concatenates [S768x128, S768x128] S768x256 1
  slices_S768x256_o0_0_S512x256 : S768x256.Slices ![0, 0] S512x256
  slices_S768x256_o512_0_S256x256 : S768x256.Slices ![512, 0] S256x256
  concatenates_S512x256_S256x256_S256x256_S1024x256_d0 : Shape.Concatenates [S512x256, S256x256, S256x256] S1024x256 0
  inb_S1x768_S1x768_0_0 : ∀ a, (![0, 0] : Fin 2 → Nat) a + S1x768.size a ≤ S1x768.size a
  h_S1x768 : 0 < S1x768.numel
  shapeCasts_S1x768_S1x768 : S1x768.ShapeCasts S1x768
  slices_S1x768_o0_0_S1x512 : S1x768.Slices ![0, 0] S1x512
  slices_S1x768_o0_512_S1x256 : S1x768.Slices ![0, 512] S1x256
  concatenates_S1x512_S1x256_S1x256_S1x1024_d1 : Shape.Concatenates [S1x512, S1x256, S1x256] S1x1024 1
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x256_S1024x256_S1024x1024_1_1_0_0_n_n_wf : DotDims.WF S1024x256 S1024x256 S1024x1024 [1] [1] [0] [0] [] []
  dot_S1024x256_S256x256_S1024x256_1_1_0_0_n_n_wf : DotDims.WF S1024x256 S256x256 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x256.size a
  hwx0_2 : ∀ i : grid0.Coords, EltTy.bits .f32 = 32 ∨ (Rect.block (s := S768x256) S768x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S4096x1.size a
  hwx0_9 : ∀ i : grid0.Coords, EltTy.bits .f32 = 32 ∨ (Rect.block (s := S4096x1) S1024x1.size (cc0_transform_9 i) (hinb0_9 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf

abbrev win0_0 : Pipeline.Window sig grid0 :=
  Pipeline.Window.ofSpec (Memref.whole main_call0_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x2x128 : Shape := ⟨3, ![4096, 2, 128]⟩
abbrev S768x256 : Shape := ⟨2, ![768, 256]⟩
abbrev S768 : Shape := ⟨1, ![768]⟩
abbrev S256x256 : Shape := ⟨2, ![256, 256]⟩
abbrev S256 : Shape := ⟨1, ![256]⟩
abbrev S1x256 : Shape := ⟨2, ![1, 256]⟩
abbrev S1 : Shape := ⟨1, ![1]⟩
abbrev S4096x256 : Shape := ⟨2, ![4096, 256]⟩
abbrev S256x768 : Shape := ⟨2, ![256, 768]⟩
abbrev S4096x768 : Shape := ⟨2, ![4096, 768]⟩
abbrev S1x768 : Shape := ⟨2, ![1, 768]⟩
abbrev S_ : Shape := ⟨0, ![]⟩
abbrev S256x1 : Shape := ⟨2, ![256, 1]⟩
abbrev S4096x1 : Shape := ⟨2, ![4096, 1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S4096x2x128, .f32⟩
  | .hbm, ⟨1, _⟩ => ⟨S768x256, .f32⟩
  | .hbm, ⟨2, _⟩ => ⟨S768x256, .f32⟩
  | .hbm, ⟨3, _⟩ => ⟨S768, .f32⟩
  | .hbm, ⟨4, _⟩ => ⟨S768, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1, .f32⟩
  | .hbm, ⟨9, _⟩ => ⟨S4096x2x128, .f32⟩
  | .hbm, ⟨10, _⟩ => ⟨S4096x256, .f32⟩
  | .hbm, ⟨11, _⟩ => ⟨S4096x256, .f32⟩
  | .hbm, ⟨12, _⟩ => ⟨S256x768, .f32⟩
  | .hbm, ⟨13, _⟩ => ⟨S4096x768, .f32⟩
  | .hbm, ⟨14, _⟩ => ⟨S1x768, .f32⟩
  | .hbm, ⟨15, _⟩ => ⟨S4096x768, .f32⟩
  | .hbm, ⟨16, _⟩ => ⟨S4096x768, .f32⟩
  | .hbm, ⟨17, _⟩ => ⟨S256x768, .f32⟩
  | .hbm, ⟨18, _⟩ => ⟨S4096x768, .f32⟩
  | .hbm, ⟨19, _⟩ => ⟨S1x768, .f32⟩
  | .hbm, ⟨20, _⟩ => ⟨S4096x768, .f32⟩
  | .hbm, ⟨21, _⟩ => ⟨S4096x768, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S4096x256, .f32⟩
  | .hbm, ⟨42, _⟩ => ⟨S4096x256, .f32⟩
  | .hbm, ⟨43, _⟩ => ⟨S_, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S_, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x2x128, .f32⟩
  | .hbm, ⟨56, _⟩ => ⟨S4096x2x128, .f32⟩
  | .hbm, ⟨57, _⟩ => ⟨S4096x256, .f32⟩
  | .hbm, ⟨58, _⟩ => ⟨S4096x256, .f32⟩
  | .hbm, ⟨59, _⟩ => ⟨S256x768, .f32⟩
  | .hbm, ⟨60, _⟩ => ⟨S4096x768, .f32⟩
  | .hbm, ⟨61, _⟩ => ⟨S1x768, .f32⟩
  | .hbm, ⟨62, _⟩ => ⟨S4096x768, .f32⟩
  | .hbm, ⟨63, _⟩ => ⟨S4096x768, .f32⟩
  | .hbm, ⟨64, _⟩ => ⟨S256x768, .f32⟩
  | .hbm, ⟨65, _⟩ => ⟨S4096x768, .f32⟩
  | .hbm, ⟨66, _⟩ => ⟨S1x768, .f32⟩
  | .hbm, ⟨67, _⟩ => ⟨S4096x768, .f32⟩
  | .hbm, ⟨68, _⟩ => ⟨S4096x768, .f32⟩
  | .hbm, ⟨69, _⟩ => ⟨S4096x256, .f32⟩
  | .hbm, ⟨70, _⟩ => ⟨S4096x256, .f32⟩
  | .hbm, ⟨71, _⟩ => ⟨S4096x256, .f32⟩
  | .hbm, ⟨72, _⟩ => ⟨S4096x256, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S_, .f32⟩
  | .hbm, ⟨79, _⟩ => ⟨S4096x256, .f32⟩
  | .hbm, ⟨80, _⟩ => ⟨S4096x256, .f32⟩
  | .hbm, ⟨81, _⟩ => ⟨S_, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S_, .f32⟩
  | .hbm, ⟨88, _⟩ => ⟨S4096x256, .f32⟩
  | .hbm, ⟨89, _⟩ => ⟨S4096x256, .f32⟩
  | .hbm, ⟨90, _⟩ => ⟨S_, .f32⟩
  | .hbm, ⟨91, _⟩ => ⟨S4096x256, .f32⟩
  | .hbm, ⟨92, _⟩ => ⟨S4096x256, .f32⟩
  | .hbm, ⟨93, _⟩ => ⟨S4096x256, .f32⟩
  | .hbm, ⟨94, _⟩ => ⟨S4096x256, .f32⟩
  | .hbm, ⟨95, _⟩ => ⟨S4096x256, .f32⟩
  | .hbm, ⟨96, _⟩ => ⟨S_, .f32⟩
  | .hbm, ⟨97, _⟩ => ⟨S4096x256, .f32⟩
  | .hbm, ⟨98, _⟩ => ⟨S4096x256, .f32⟩
  | .hbm, ⟨99, _⟩ => ⟨S4096x256, .f32⟩
  | .hbm, ⟨100, _⟩ => ⟨S4096x256, .f32⟩
  | .hbm, ⟨101, _⟩ => ⟨S4096x256, .f32⟩
  | .hbm, ⟨102, _⟩ => ⟨S4096x2x128, .f32⟩
  | .hbm, ⟨103, _⟩ => ⟨S4096x256, .f32⟩
  | .hbm, ⟨104, _⟩ => ⟨S256x256, .f32⟩
  | .hbm, ⟨105, _⟩ => ⟨S4096x256, .f32⟩
  | .hbm, ⟨106, _⟩ => ⟨S1x256, .f32⟩
  | .hbm, ⟨107, _⟩ => ⟨S4096x256, .f32⟩
  | .hbm, ⟨108, _⟩ => ⟨S4096x256, .f32⟩
  | .hbm, ⟨109, _⟩ => ⟨S_, .f32⟩
  | .hbm, ⟨110, _⟩ => ⟨S4096x256, .f32⟩
  | .hbm, ⟨111, _⟩ => ⟨S4096x256, .f32⟩
  | .hbm, ⟨112, _⟩ => ⟨S256x1, .f32⟩
  | .hbm, ⟨113, _⟩ => ⟨S4096x1, .f32⟩
  | .hbm, ⟨114, _⟩ => ⟨S1x1, .f32⟩
  | .hbm, ⟨115, _⟩ => ⟨S4096x1, .f32⟩
  | .hbm, ⟨116, _⟩ => ⟨S4096x1, .f32⟩
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_4 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_6 : Ref sig .tc := ⟨.hbm, 87, rfl⟩
abbrev main_v71 : Ref sig .tc := ⟨.hbm, 88, rfl⟩
abbrev main_v72 : Ref sig .tc := ⟨.hbm, 89, rfl⟩
abbrev main_cst_7 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_8 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_call0_cst : Ref sig .tc := ⟨.hbm, 109, rfl⟩
abbrev main_call0_v0 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩

abbrev nD : Nat := 1
abbrev τ : Topo := Topo.v7x

variable {F : FTy → Type} [FloatOps F]

class Facts₀ : Prop where
  shapeCasts_S4096x2x128_S4096x256 : S4096x2x128.ShapeCasts S4096x256
  transposes_S768x256_S256x768_1_0 : S768x256.Transposes [1, 0] S256x768
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  slices_S4096x768_S4096x256_0_0 : S4096x768.Slices ![0, 0] S4096x256
  slices_S4096x768_S4096x256_0_256 : S4096x768.Slices ![0, 256] S4096x256
  slices_S4096x768_S4096x256_0_512 : S4096x768.Slices ![0, 512] S4096x256
  bcast_S_S4096x256 : S_.BroadcastsInDim S4096x256 (![] : Fin 0 → Fin S4096x256.rank)
  shapeCasts_S4096x256_S4096x2x128 : S4096x256.ShapeCasts S4096x2x128
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S1x256_S256x1_1_0 : S1x256.Transposes [1, 0] S256x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x256_S256x768_S4096x768_1_0_0_1_n_n_wf : DotDims.WF S4096x256 S256x768 S4096x768 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []

variable [Facts₀]

def dot_S4096x256_S256x768_S4096x768_1_0_0_1_n_n : DotDims S4096x256 S256x768 S4096x768 where
  lhsContracting := [1]
  rhsContracting := [0]
  lhsNonContracting := [0]
  rhsNonContracting := [1]
  lhsBatch := []
  rhsBatch := []
  wf := dot_S4096x256_S256x768_S4096x768_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.Spec.lean ====
/-
  The network both programs compute, one batch row at a time, on the extended reals.

  A row `x` of 256 numbers is the two nodes' 128 features side by side. One round of message passing feeds a GRU cell
  with the row whose two halves are exchanged (`swapc`) as input and the row itself as hidden state; two rounds are
  followed by a linear layer, a ReLU and a linear layer onto one number (`head`).

  Two arrangements of one round are stated, each in the shape its program computes it:
  * `stepR`: the cell as written — the input product `gi` (of the exchanged row) and the hidden product `gh`, each with
    its bias, the gates `1 / (1 + exp (-(gi + gh)))`, the candidate `tanh (gi + r * gh)`, the blend `(1 - z) * n + z * x`.
  * `stepK`: one product of the row itself with the merged matrix `mergedW` (the exchange moved onto the columns of the
    input weights, the reset and update rows of the two weight matrices added) plus the merged bias, the gates as
    `1/2 * (1 + tanh (1/2 * g))`, the blend as `n + z * (x - n)`.
  That the two agree on finite data is the algebra module's theorem; nothing here needs finiteness.
-/
import Idealize.ShloMosaic.PureOps.Ideal
import Idealize.ShloMosaic.Lib.ValueIdx

noncomputable section

namespace Cert.GruNet

open Idealize.ShloMosaic Idealize.ShloMosaic.ValueIdx
open scoped BigOperators

/-- The float words of 1/2, 1 and 0, read as extended reals. -/
abbrev half : EReal := Ideal.ofBits .f32 0x3F000000#32
abbrev one : EReal := Ideal.ofBits .f32 0x3F800000#32
abbrev zero : EReal := Ideal.ofBits .f32 0x00000000#32

/-- Exchange of the two halves of a row: column `c` of the exchanged row is column `c ± 128` of the row. -/
def swapc (c : Fin 256) : Fin 256 :=
  if h : c.val < 128 then ⟨c.val + 128, by omega⟩ else ⟨c.val - 128, by omega⟩

/-! ## The round as the reference computes it -/

/-- Input product with its bias: row `q` of the input weights against the exchanged row. -/
def giR (x : Fin 256 → EReal) (Wih : Fin 768 → Fin 256 → EReal) (bih : Fin 768 → EReal) (q : Fin 768) : EReal :=
  (∑ c : Fin 256, x (swapc c) * Wih q c) + bih q

/-- Hidden product with its bias: row `q` of the hidden weights against the row. -/
def ghR (x : Fin 256 → EReal) (Whh : Fin 768 → Fin 256 → EReal) (bhh : Fin 768 → EReal) (q : Fin 768) : EReal :=
  (∑ c : Fin 256, x c * Whh q c) + bhh q

/-- The logistic function as the quotient `1 / (1 + exp (-u))`. -/
def sigR (u : EReal) : EReal := Ideal.div one (one + Ideal.exp (-u))

def rR (x : Fin 256 → EReal) (Wih Whh : Fin 768 → Fin 256 → EReal) (bih bhh : Fin 768 → EReal) (j : Fin 256) : EReal :=
  sigR (giR x Wih bih ⟨j.val, by omega⟩ + ghR x Whh bhh ⟨j.val, by omega⟩)

def zR (x : Fin 256 → EReal) (Wih Whh : Fin 768 → Fin 256 → EReal) (bih bhh : Fin 768 → EReal) (j : Fin 256) : EReal :=
  sigR (giR x Wih bih ⟨256 + j.val, by omega⟩ + ghR x Whh bhh ⟨256 + j.val, by omega⟩)

def nR (x : Fin 256 → EReal) (Wih Whh : Fin 768 → Fin 256 → EReal) (bih bhh : Fin 768 → EReal) (j : Fin 256) : EReal :=
  Ideal.tanh (giR x Wih bih ⟨512 + j.val, by omega⟩ + rR x Wih Whh bih bhh j * ghR x Whh bhh ⟨512 + j.val, by omega⟩)

/-- One round, the cell as written. -/
def stepR (x : Fin 256 → EReal) (Wih Whh : Fin 768 → Fin 256 → EReal) (bih bhh : Fin 768 → EReal) (j : Fin 256) : EReal :=
  (one - zR x Wih Whh bih bhh j) * nR x Wih Whh bih bhh j + zR x Wih Whh bih bhh j * x j

/-! ## The round as the kernel computes it -/

/-- The merged gate matrix, 1024 rows: rows 0–511 the reset and update rows of the input weights (columns exchanged) plus
    those of the hidden weights; rows 512–767 the candidate rows of the input weights (columns exchanged); rows 768–1023
    the candidate rows of the hidden weights. -/
def mergedW (Wih Whh : Fin 768 → Fin 256 → EReal) (q : Fin 1024) (c : Fin 256) : EReal :=
  if h : q.val < 512 then Wih ⟨q.val, by omega⟩ (swapc c) + Whh ⟨q.val, by omega⟩ c
  else if h' : q.val < 768 then Wih ⟨q.val, by omega⟩ (swapc c)
  else Whh ⟨q.val - 256, by omega⟩ c

/-- The merged bias, laid out as the merged matrix's rows. -/
def mergedB (bih bhh : Fin 768 → EReal) (q : Fin 1024) : EReal :=
  if h : q.val < 512 then bih ⟨q.val, by omega⟩ + bhh ⟨q.val, by omega⟩
  else if h' : q.val < 768 then bih ⟨q.val, by omega⟩
  else bhh ⟨q.val - 256, by omega⟩

/-- Entry `q` of the one product of a round: the row against row `q` of the gate matrix, plus the bias. -/
def gateK (x : Fin 256 → EReal) (M : Fin 1024 → Fin 256 → EReal) (gb : Fin 1024 → EReal) (q : Fin 1024) : EReal :=
  (∑ c : Fin 256, x c * M q c) + gb q

/-- The logistic function as `1/2 * (1 + tanh (1/2 * u))`. -/
def sigK (u : EReal) : EReal := half * (one + Ideal.tanh (half * u))

def rK (x : Fin 256 → EReal) (M : Fin 1024 → Fin 256 → EReal) (gb : Fin 1024 → EReal) (j : Fin 256) : EReal :=
  sigK (gateK x M gb ⟨j.val, by omega⟩)

def zK (x : Fin 256 → EReal) (M : Fin 1024 → Fin 256 → EReal) (gb : Fin 1024 → EReal) (j : Fin 256) : EReal :=
  sigK (gateK x M gb ⟨256 + j.val, by omega⟩)

def nK (x : Fin 256 → EReal) (M : Fin 1024 → Fin 256 → EReal) (gb : Fin 1024 → EReal) (j : Fin 256) : EReal :=
  Ideal.tanh (gateK x M gb ⟨512 + j.val, by omega⟩ + rK x M gb j * gateK x M gb ⟨768 + j.val, by omega⟩)

/-- One round over a gate matrix and bias: the blend `n + z * (x - n)`. -/
def stepK (x : Fin 256 → EReal) (M : Fin 1024 → Fin 256 → EReal) (gb : Fin 1024 → EReal) (j : Fin 256) : EReal :=
  nK x M gb j + zK x M gb j * (x j - nK x M gb j)

/-! ## The two layers after the rounds, and the whole network -/

/-- Linear layer, ReLU, linear layer onto one number. -/
def head (x : Fin 256 → EReal) (fcW : Fin 256 → Fin 256 → EReal) (fcb : Fin 256 → EReal) (l2W : Fin 256 → EReal)
    (l2b : EReal) : EReal :=
  (∑ f : Fin 256, max ((∑ c : Fin 256, x c * fcW f c) + fcb f) zero * l2W f) + l2b

/-- The network on one row, the reference's arrangement. -/
def netR (x : Fin 256 → EReal) (Wih Whh : Fin 768 → Fin 256 → EReal) (bih bhh : Fin 768 → EReal)
    (fcW : Fin 256 → Fin 256 → EReal) (fcb : Fin 256 → EReal) (l2W : Fin 256 → EReal) (l2b : EReal) : EReal :=
  head (stepR (stepR x Wih Whh bih bhh) Wih Whh bih bhh) fcW fcb l2W l2b

/-- The network on one row, the kernel's arrangement. -/
def netK (x : Fin 256 → EReal) (Wih Whh : Fin 768 → Fin 256 → EReal) (bih bhh : Fin 768 → EReal)
    (fcW : Fin 256 → Fin 256 → EReal) (fcb : Fin 256 → EReal) (l2W : Fin 256 → EReal) (l2b : EReal) : EReal :=
  head (stepK (stepK x (mergedW Wih Whh) (mergedB bih bhh)) (mergedW Wih Whh) (mergedB bih bhh)) fcW fcb l2W l2b

/-! ## Rows of the argument arrays -/

/-- Row `b` of the features `[4096, 2, 128]` flattened to 256 columns: column `c` is node `c / 128`, feature `c % 128`. -/
def rowOf (feat : (⟨3, ![4096, 2, 128]⟩ : Shape).Idx → EReal) (b : Fin 4096) : Fin 256 → EReal :=
  fun c => feat (ix3 b (⟨c.val / 128, by omega⟩ : Fin 2) (⟨c.val % 128, by omega⟩ : Fin 128))

/-- The network's result for batch row `b`, in the kernel's arrangement, as a function of the nine argument arrays. -/
def outK (feat : (⟨3, ![4096, 2, 128]⟩ : Shape).Idx → EReal) (Wih Whh : (⟨2, ![768, 256]⟩ : Shape).Idx → EReal)
    (bih bhh : (⟨1, ![768]⟩ : Shape).Idx → EReal) (fcW : (⟨2, ![256, 256]⟩ : Shape).Idx → EReal)
    (fcb : (⟨1, ![256]⟩ : Shape).Idx → EReal) (l2W : (⟨2, ![1, 256]⟩ : Shape).Idx → EReal)
    (l2b : (⟨1, ![1]⟩ : Shape).Idx → EReal) (b : Fin 4096) : EReal :=
  netK (rowOf feat b) (fun q c => Wih (ix2 q c)) (fun q c => Whh (ix2 q c)) (fun q => bih (ix1 q)) (fun q => bhh (ix1 q))
    (fun f c => fcW (ix2 f c)) (fun f => fcb (ix1 f)) (fun f => l2W (ix2 (0 : Fin 1) f)) (l2b (ix1 (0 : Fin 1)))

/-- The same in the reference's arrangement. -/
def outR (feat : (⟨3, ![4096, 2, 128]⟩ : Shape).Idx → EReal) (Wih Whh : (⟨2, ![768, 256]⟩ : Shape).Idx → EReal)
    (bih bhh : (⟨1, ![768]⟩ : Shape).Idx → EReal) (fcW : (⟨2, ![256, 256]⟩ : Shape).Idx → EReal)
    (fcb : (⟨1, ![256]⟩ : Shape).Idx → EReal) (l2W : (⟨2, ![1, 256]⟩ : Shape).Idx → EReal)
    (l2b : (⟨1, ![1]⟩ : Shape).Idx → EReal) (b : Fin 4096) : EReal :=
  netR (rowOf feat b) (fun q c => Wih (ix2 q c)) (fun q c => Whh (ix2 q c)) (fun q => bih (ix1 q)) (fun q => bhh (ix1 q))
    (fun f c => fcW (ix2 f c)) (fun f => fcb (ix1 f)) (fun f => l2W (ix2 (0 : Fin 1) f)) (l2b (ix1 (0 : Fin 1)))

end Cert.GruNet

end
-- ==== Proof.Algebra.lean ====
/-
  The algebra of one GRU round on the extended reals, on finite data.

  On real data every intermediate of a round is (the coercion of) a real number, so the two arrangements of the round
  can be compared in the field of reals, where multiplication distributes over addition:
  * the float words of 1/2, 1 and 0 denote the reals 1/2, 1 and 0;
  * the logistic function: 1/2 * (1 + tanh (u/2)) = 1 / (1 + exp (-u));
  * the merged product: the exchange of a row's two halves is an involution of the columns, so it can be moved from the
    row onto the columns of the input weights, and the reset and update rows of the two products can be added before
    the multiplication;
  * the blend: n + z * (x - n) = (1 - z) * n + z * x.
  A round of real data is again real data, so the second round is compared the same way, and the two networks apply
  the same two layers to the same row.
-/
import proofs.«152082_g6846177870363_cont_9to1c4b_865_4_alg».proof.Proof.Spec

noncomputable section

namespace Cert.GruNet

open Idealize.ShloMosaic Idealize.ShloMosaic.ValueIdx
open scoped BigOperators

namespace Alg

/-! ## The three float words -/

theorem half_eq : half = ((1 / 2 : ℝ) : EReal) := by
  simp [Ideal.ofBits, Ideal.ieee, -EReal.coe_mul]; norm_num

theorem one_eq : one = ((1 : ℝ) : EReal) := by
  simp [Ideal.ofBits, Ideal.ieee, -EReal.coe_mul]; norm_num

theorem zero_eq : zero = 0 := by simp [Ideal.ofBits, Ideal.ieee]

/-! ## Coercion of a finite sum -/

theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-! ## The logistic function -/

/-- In the reals, 1/2 * (1 + tanh (u/2)) = 1 / (1 + exp (-u)): with a = exp (u/2), both sides are a / (a + 1/a). -/
theorem logistic_real (u : ℝ) : 1 / 2 * (1 + Real.tanh (1 / 2 * u)) = 1 / (1 + Real.exp (-u)) := by
  have hu : Real.exp (-u) = (Real.exp (1 / 2 * u))⁻¹ * (Real.exp (1 / 2 * u))⁻¹ := by
    rw [← Real.exp_neg, ← Real.exp_add]; congr 1; ring
  rw [Real.tanh_eq_sinh_div_cosh, Real.sinh_eq, Real.cosh_eq, hu, Real.exp_neg]
  have ha : 0 < Real.exp (1 / 2 * u) := Real.exp_pos _
  generalize Real.exp (1 / 2 * u) = a at ha ⊢
  have h1 : a ≠ 0 := ha.ne'
  have h2 : a + a⁻¹ ≠ 0 := by positivity
  have h3 : 1 + a⁻¹ * a⁻¹ ≠ 0 := by positivity
  field_simp
  ring

theorem sigK_coe (u : ℝ) : sigK (u : EReal) = ((1 / 2 * (1 + Real.tanh (1 / 2 * u)) : ℝ) : EReal) := by
  unfold sigK
  rw [half_eq, one_eq, ← EReal.coe_mul, Ideal.tanh_coe, ← EReal.coe_add, ← EReal.coe_mul]

theorem sigR_coe (u : ℝ) : sigR (u : EReal) = ((1 / (1 + Real.exp (-u)) : ℝ) : EReal) := by
  unfold sigR
  have hne : (1 + Real.exp (-u) : ℝ) ≠ 0 := by positivity
  rw [one_eq, ← EReal.coe_neg, Ideal.exp_coe, ← EReal.coe_add, Ideal.div_coe hne, ← EReal.coe_mul, one_mul]

theorem sigK_eq_sigR (u : ℝ) : sigK (u : EReal) = sigR (u : EReal) := by
  rw [sigK_coe, sigR_coe, logistic_real]

/-! ## The exchange of the two halves -/

theorem swapc_val (c : Fin 256) : (swapc c).val = if c.val < 128 then c.val + 128 else c.val - 128 := by
  unfold swapc; split_ifs <;> rfl

theorem swapc_swapc (c : Fin 256) : swapc (swapc c) = c := by
  have := c.isLt
  apply Fin.ext
  rw [swapc_val, swapc_val]
  split_ifs <;> omega

/-- Summing over the exchanged columns is summing over the columns. -/
theorem sum_swapc (x W : Fin 256 → ℝ) : ∑ c, x c * W (swapc c) = ∑ c, x (swapc c) * W c := by
  have hinv : Function.Involutive swapc := swapc_swapc
  refine Fintype.sum_equiv (Function.Involutive.toPerm swapc hinv) _ _ fun c => ?_
  rw [Function.Involutive.coe_toPerm, swapc_swapc]

/-- The merged product in the reals. -/
theorem merged_real (x W1 W2 : Fin 256 → ℝ) (b1 b2 : ℝ) :
    ∑ c, x c * (W1 (swapc c) + W2 c) + (b1 + b2) = (∑ c, x (swapc c) * W1 c + b1) + (∑ c, x c * W2 c + b2) := by
  simp only [mul_add, Finset.sum_add_distrib]
  rw [sum_swapc]
  ring

/-! ## Real data and the real round -/

/-- Real rows, matrices and biases read as extended-real ones. -/
def cv (x : Fin 256 → ℝ) : Fin 256 → EReal := fun c => (x c : EReal)
def cm (W : Fin 768 → Fin 256 → ℝ) : Fin 768 → Fin 256 → EReal := fun q c => (W q c : EReal)
def cb (b : Fin 768 → ℝ) : Fin 768 → EReal := fun q => (b q : EReal)

variable (x : Fin 256 → ℝ) (Wih Whh : Fin 768 → Fin 256 → ℝ) (bih bhh : Fin 768 → ℝ)

/-- The input and hidden products, the gates, the candidate and the round in the reals. -/
def gi (q : Fin 768) : ℝ := ∑ c, x (swapc c) * Wih q c + bih q
def gh (q : Fin 768) : ℝ := ∑ c, x c * Whh q c + bhh q
def sg (u : ℝ) : ℝ := 1 / (1 + Real.exp (-u))
def rr (j : Fin 256) : ℝ := sg (gi x Wih bih ⟨j.val, by omega⟩ + gh x Whh bhh ⟨j.val, by omega⟩)
def zz (j : Fin 256) : ℝ := sg (gi x Wih bih ⟨256 + j.val, by omega⟩ + gh x Whh bhh ⟨256 + j.val, by omega⟩)
def nn (j : Fin 256) : ℝ :=
  Real.tanh (gi x Wih bih ⟨512 + j.val, by omega⟩ + rr x Wih Whh bih bhh j * gh x Whh bhh ⟨512 + j.val, by omega⟩)
def st (j : Fin 256) : ℝ := (1 - zz x Wih Whh bih bhh j) * nn x Wih Whh bih bhh j + zz x Wih Whh bih bhh j * x j

/-! ### The reference's arrangement on real data -/

theorem giR_coe (q : Fin 768) : giR (cv x) (cm Wih) (cb bih) q = (gi x Wih bih q : EReal) := by
  unfold giR gi cv cm cb
  rw [EReal.coe_add, coe_sum]
  simp only [EReal.coe_mul]

theorem ghR_coe (q : Fin 768) : ghR (cv x) (cm Whh) (cb bhh) q = (gh x Whh bhh q : EReal) := by
  unfold ghR gh cv cm cb
  rw [EReal.coe_add, coe_sum]
  simp only [EReal.coe_mul]

theorem rR_coe (j : Fin 256) : rR (cv x) (cm Wih) (cm Whh) (cb bih) (cb bhh) j = (rr x Wih Whh bih bhh j : EReal) := by
  unfold rR rr sg
  rw [giR_coe, ghR_coe, ← EReal.coe_add, sigR_coe]

theorem zR_coe (j : Fin 256) : zR (cv x) (cm Wih) (cm Whh) (cb bih) (cb bhh) j = (zz x Wih Whh bih bhh j : EReal) := by
  unfold zR zz sg
  rw [giR_coe, ghR_coe, ← EReal.coe_add, sigR_coe]

theorem nR_coe (j : Fin 256) : nR (cv x) (cm Wih) (cm Whh) (cb bih) (cb bhh) j = (nn x Wih Whh bih bhh j : EReal) := by
  unfold nR nn
  rw [giR_coe, ghR_coe, rR_coe, ← EReal.coe_mul, ← EReal.coe_add, Ideal.tanh_coe]

theorem stepR_coe (j : Fin 256) :
    stepR (cv x) (cm Wih) (cm Whh) (cb bih) (cb bhh) j = (st x Wih Whh bih bhh j : EReal) := by
  unfold stepR st
  rw [zR_coe, nR_coe, one_eq]
  unfold cv
  rw [← EReal.coe_sub, ← EReal.coe_mul, ← EReal.coe_mul, ← EReal.coe_add]

/-! ### The kernel's arrangement on real data -/

/-- A reset or update entry of the one product: the sum of the input and hidden products. -/
theorem gate_lo (q : Fin 1024) (h : q.val < 512) :
    gateK (cv x) (mergedW (cm Wih) (cm Whh)) (mergedB (cb bih) (cb bhh)) q
      = ((gi x Wih bih ⟨q.val, by omega⟩ + gh x Whh bhh ⟨q.val, by omega⟩ : ℝ) : EReal) := by
  have key : gi x Wih bih ⟨q.val, by omega⟩ + gh x Whh bhh ⟨q.val, by omega⟩
      = ∑ c, x c * (Wih ⟨q.val, by omega⟩ (swapc c) + Whh ⟨q.val, by omega⟩ c)
        + (bih ⟨q.val, by omega⟩ + bhh ⟨q.val, by omega⟩) := by
    unfold gi gh
    exact (merged_real x (Wih ⟨q.val, by omega⟩) (Whh ⟨q.val, by omega⟩) _ _).symm
  rw [key]
  unfold gateK
  simp only [mergedW, mergedB, dif_pos h, cv, cm, cb]
  rw [EReal.coe_add, EReal.coe_add, coe_sum]
  simp only [EReal.coe_mul, EReal.coe_add]

/-- A candidate entry of the input part: the input product. -/
theorem gate_mid (q : Fin 1024) (h1 : ¬ q.val < 512) (h2 : q.val < 768) :
    gateK (cv x) (mergedW (cm Wih) (cm Whh)) (mergedB (cb bih) (cb bhh)) q
      = ((gi x Wih bih ⟨q.val, by omega⟩ : ℝ) : EReal) := by
  have key : gi x Wih bih ⟨q.val, by omega⟩
      = ∑ c, x c * Wih ⟨q.val, by omega⟩ (swapc c) + bih ⟨q.val, by omega⟩ := by
    unfold gi
    rw [sum_swapc]
  rw [key]
  unfold gateK
  simp only [mergedW, mergedB, dif_neg h1, dif_pos h2, cv, cm, cb]
  rw [EReal.coe_add, coe_sum]
  simp only [EReal.coe_mul]

/-- A candidate entry of the hidden part: the hidden product. -/
theorem gate_hi (q : Fin 1024) (h1 : ¬ q.val < 512) (h2 : ¬ q.val < 768) :
    gateK (cv x) (mergedW (cm Wih) (cm Whh)) (mergedB (cb bih) (cb bhh)) q
      = ((gh x Whh bhh ⟨q.val - 256, by omega⟩ : ℝ) : EReal) := by
  unfold gateK gh
  simp only [mergedW, mergedB, dif_neg h1, dif_neg h2, cv, cm, cb]
  rw [EReal.coe_add, coe_sum]
  simp only [EReal.coe_mul]

theorem rK_coe (j : Fin 256) :
    rK (cv x) (mergedW (cm Wih) (cm Whh)) (mergedB (cb bih) (cb bhh)) j = (rr x Wih Whh bih bhh j : EReal) := by
  have hj := j.isLt
  unfold rK
  rw [gate_lo x Wih Whh bih bhh _ (by simp only []; omega), sigK_eq_sigR, sigR_coe]
  rfl

theorem zK_coe (j : Fin 256) :
    zK (cv x) (mergedW (cm Wih) (cm Whh)) (mergedB (cb bih) (cb bhh)) j = (zz x Wih Whh bih bhh j : EReal) := by
  have hj := j.isLt
  unfold zK
  rw [gate_lo x Wih Whh bih bhh _ (by simp only []; omega), sigK_eq_sigR, sigR_coe]
  rfl

theorem nK_coe (j : Fin 256) :
    nK (cv x) (mergedW (cm Wih) (cm Whh)) (mergedB (cb bih) (cb bhh)) j = (nn x Wih Whh bih bhh j : EReal) := by
  have hj := j.isLt
  have hidx : (⟨768 + j.val - 256, by omega⟩ : Fin 768) = ⟨512 + j.val, by omega⟩ := Fin.ext (by simp only []; omega)
  unfold nK
  rw [gate_mid x Wih Whh bih bhh _ (by simp only []; omega) (by simp only []; omega),
    gate_hi x Wih Whh bih bhh _ (by simp only []; omega) (by simp only []; omega), rK_coe,
    ← EReal.coe_mul, ← EReal.coe_add, Ideal.tanh_coe]
  simp only [hidx]
  rfl

theorem stepK_coe (j : Fin 256) :
    stepK (cv x) (mergedW (cm Wih) (cm Whh)) (mergedB (cb bih) (cb bhh)) j = (st x Wih Whh bih bhh j : EReal) := by
  unfold stepK
  rw [zK_coe, nK_coe]
  unfold cv
  rw [← EReal.coe_sub, ← EReal.coe_mul, ← EReal.coe_add]
  congr 1
  unfold st
  ring

/-- One round on real data: the two arrangements agree, and the result is real data. -/
theorem step_eq :
    stepK (cv x) (mergedW (cm Wih) (cm Whh)) (mergedB (cb bih) (cb bhh)) = cv (st x Wih Whh bih bhh)
      ∧ stepR (cv x) (cm Wih) (cm Whh) (cb bih) (cb bhh) = cv (st x Wih Whh bih bhh) :=
  ⟨funext fun j => stepK_coe x Wih Whh bih bhh j, funext fun j => stepR_coe x Wih Whh bih bhh j⟩

end Alg

open Alg

/-- On finite data the kernel's arrangement of the network computes what the reference's does. -/
theorem netK_eq_netR (x : Fin 256 → EReal) (Wih Whh : Fin 768 → Fin 256 → EReal) (bih bhh : Fin 768 → EReal)
    (fcW : Fin 256 → Fin 256 → EReal) (fcb : Fin 256 → EReal) (l2W : Fin 256 → EReal) (l2b : EReal)
    (hx : ∀ c, ∃ r : ℝ, x c = (r : EReal)) (hWih : ∀ q c, ∃ r : ℝ, Wih q c = (r : EReal))
    (hWhh : ∀ q c, ∃ r : ℝ, Whh q c = (r : EReal)) (hbih : ∀ q, ∃ r : ℝ, bih q = (r : EReal))
    (hbhh : ∀ q, ∃ r : ℝ, bhh q = (r : EReal)) :
    netK x Wih Whh bih bhh fcW fcb l2W l2b = netR x Wih Whh bih bhh fcW fcb l2W l2b := by
  obtain ⟨x', rfl⟩ : ∃ x' : Fin 256 → ℝ, x = cv x' :=
    ⟨fun c => (hx c).choose, funext fun c => (hx c).choose_spec⟩
  obtain ⟨Wih', rfl⟩ : ∃ W : Fin 768 → Fin 256 → ℝ, Wih = cm W :=
    ⟨fun q c => (hWih q c).choose, funext fun q => funext fun c => (hWih q c).choose_spec⟩
  obtain ⟨Whh', rfl⟩ : ∃ W : Fin 768 → Fin 256 → ℝ, Whh = cm W :=
    ⟨fun q c => (hWhh q c).choose, funext fun q => funext fun c => (hWhh q c).choose_spec⟩
  obtain ⟨bih', rfl⟩ : ∃ b : Fin 768 → ℝ, bih = cb b :=
    ⟨fun q => (hbih q).choose, funext fun q => (hbih q).choose_spec⟩
  obtain ⟨bhh', rfl⟩ : ∃ b : Fin 768 → ℝ, bhh = cb b :=
    ⟨fun q => (hbhh q).choose, funext fun q => (hbhh q).choose_spec⟩
  unfold netK netR
  rw [(step_eq x' Wih' Whh' bih' bhh').1, (step_eq x' Wih' Whh' bih' bhh').2,
    (step_eq (st x' Wih' Whh' bih' bhh') Wih' Whh' bih' bhh').1,
    (step_eq (st x' Wih' Whh' bih' bhh') Wih' Whh' bih' bhh').2]

/-- The same at batch row b of the argument arrays. -/
theorem outK_eq_outR (feat : (⟨3, ![4096, 2, 128]⟩ : Shape).Idx → EReal) (Wih Whh : (⟨2, ![768, 256]⟩ : Shape).Idx → EReal)
    (bih bhh : (⟨1, ![768]⟩ : Shape).Idx → EReal) (fcW : (⟨2, ![256, 256]⟩ : Shape).Idx → EReal)
    (fcb : (⟨1, ![256]⟩ : Shape).Idx → EReal) (l2W : (⟨2, ![1, 256]⟩ : Shape).Idx → EReal)
    (l2b : (⟨1, ![1]⟩ : Shape).Idx → EReal)
    (hfeat : ∀ i, ∃ r : ℝ, feat i = (r : EReal)) (hWih : ∀ i, ∃ r : ℝ, Wih i = (r : EReal)) (hWhh : ∀ i, ∃ r : ℝ, Whh i = (r : EReal))
    (hbih : ∀ i, ∃ r : ℝ, bih i = (r : EReal)) (hbhh : ∀ i, ∃ r : ℝ, bhh i = (r : EReal)) (b : Fin 4096) :
    outK feat Wih Whh bih bhh fcW fcb l2W l2b b = outR feat Wih Whh bih bhh fcW fcb l2W l2b b := by
  unfold outK outR
  exact netK_eq_netR _ _ _ _ _ _ _ _ _ (fun _ => hfeat _) (fun _ _ => hWih _) (fun _ _ => hWhh _) (fun _ => hbih _)
    (fun _ => hbhh _)

end Cert.GruNet

end
-- ==== Proof.Finite.lean ====
/-
  From "every float input is finite" to "every entry is a real number".

  The precondition compares, entry by entry, the absolute value of each argument array with plus infinity,
  reduces each comparison array by "and" to one bit, and joins the nine bits by "and"; it states that the
  outcome is 1. Hence every one of the nine bits is 1, hence every entry x of every array has max x (-x) < ⊤
  in the extended reals; so x is neither ⊤ nor ⊥ and is therefore the coercion of a real number. The statement
  below records this for the first five argument arrays.
-/
import proofs.«152082_g6846177870363_cont_9to1c4b_865_4_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.GruNet.Finite

open Idealize.ShloMosaic Cert.Pre_finite_inputs

/-- The bit pattern 0x7F800000 denotes plus infinity. -/
theorem inf_bits : Ideal.ofBits .f32 0x7F800000#32 = (⊤ : EReal) := by
  simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The element fact: the comparison |x| < +inf being 1 says x is real. -/
theorem real_of_cmp (x : EReal) (h : Ideal.cmp .olt (max x (-x)) (⊤ : EReal) = 1#1) : ∃ r : ℝ, x = (r : EReal) := by
  apply real_of_abs_lt_top
  by_contra hn
  simp [Ideal.cmp, hn] at h

instance : Subsingleton S_.Idx := ⟨fun a b => funext fun d => d.elim0⟩

/-- An all-reduce by "and" of the comparison |x| < +inf that is 1 says every entry of x is real. -/
theorem reals_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := by
  intro i
  have e := Host.reduce_andi_all _ _ hr hu ValueIdx.ix0 h i
  apply real_of_cmp
  rw [← inf_bits]
  exact e

/-- THE PRECONDITION DECODED: every entry of the first five argument arrays is a real number. -/
theorem reals_of_pre [Cert.Pre_finite_inputs.Facts]
    (a0 : FVec Ideal S4096x2x128 .f32) (a1 a2 : FVec Ideal S768x256 .f32) (a3 a4 : FVec Ideal S768 .f32)
    (a5 : FVec Ideal S256x256 .f32) (a6 : FVec Ideal S256 .f32) (a7 : FVec Ideal S1x256 .f32) (a8 : FVec Ideal S1 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  -- the chain of operations, read at the one index of the scalar result: a nest of "and"s of the nine reduced bits
  simp only [fn, fn_part1, fn_part2, andi, IntOp.andi_eq_one] at h0
  obtain ⟨⟨⟨⟨⟨⟨⟨⟨e0, e1⟩, e2⟩, e3⟩, e4⟩, -⟩, -⟩, -⟩, -⟩ := h0
  exact ⟨reals_of_all a0 _ _ _ e0, reals_of_all a1 _ _ _ e1, reals_of_all a2 _ _ _ e2,
    reals_of_all a3 _ _ _ e3, reals_of_all a4 _ _ _ e4⟩

end Cert.GruNet.Finite

end
-- ==== Proof.RefSide.lean ====
/-
  The reference program computes the specification's network on every batch row.

  Read at batch row `b`, the reference's result is `outR`: the network in the arrangement "input product of the
  exchanged row, hidden product of the row, gates as quotients, blend `(1 - z) * n + z * x`", twice, followed by the two
  layers after the rounds. Everything here is structural: a layout operation is read at the index it moves, a product is
  the sum over its contracted axis, a pointwise operation is read at the same index. Reversing the node axis of
  `[4096, 2, 128]` and flattening to `[4096, 256]` reads column `c` at column `c ± 128`, the exchange of the two halves.
-/
import proofs.«152082_g6846177870363_cont_9to1c4b_865_4_alg».proof.Proof.Gen.ReferenceIdeal.Read
import proofs.«152082_g6846177870363_cont_9to1c4b_865_4_alg».proof.Proof.Spec

noncomputable section

namespace Cert.GruNet.Ref

open Cert.ReferenceIdeal Cert.ReferenceIdeal.Read Idealize.ShloMosaic Idealize.ShloMosaic.ValueIdx Cert.GruNet
open scoped BigOperators

/-! ## The row and the exchanged row -/

/-- Flattening the features reads row `b`, column `c` at node `c / 128`, feature `c % 128`. -/
theorem v2_at (x0 : (⟨S4096x2x128, .f32⟩ : BufTy).Contents (Elt Ideal)) (b : Fin 4096) (c : Fin 256) :
    val_main_v2 (F := Ideal) x0 (ix2 b c) = rowOf x0 b c := by
  rw [val_main_v2_apply]
  unfold rowOf
  refine congrArg x0 (funext fun a => Fin.ext ?_)
  have hb := b.isLt
  have hc := c.isLt
  match a with
  | ⟨0, _⟩ => show (b.val * 256 + c.val) / 256 = b.val; omega
  | ⟨1, _⟩ => show (b.val * 256 + c.val) / 128 % 2 = c.val / 128; omega
  | ⟨2, _⟩ => show (b.val * 256 + c.val) % 128 = c.val % 128; omega

/-- The exchanged column, by cases on the half the column lies in. -/
theorem swapc_val (c : Fin 256) : (swapc c).val = if c.val < 128 then c.val + 128 else c.val - 128 := by
  unfold swapc
  split_ifs <;> rfl

/-- Reversing the node axis before flattening reads column `c` at the exchanged column. -/
theorem v1_at (x0 : (⟨S4096x2x128, .f32⟩ : BufTy).Contents (Elt Ideal)) (b : Fin 4096) (c : Fin 256) :
    val_main_v1 (F := Ideal) x0 (ix2 b c) = rowOf x0 b (swapc c) := by
  rw [val_main_v1_apply]
  unfold val_main_v0 Host.reverse rowOf
  refine congrArg x0 (funext fun a => Fin.ext ?_)
  have hb := b.isLt
  have hc := c.isLt
  have hs := swapc_val c
  match a with
  | ⟨0, _⟩ =>
    show (b.val * 256 + c.val) / 256 = b.val
    omega
  | ⟨1, _⟩ =>
    show 2 - ((b.val * 256 + c.val) / 128 % 2 + 1) = (swapc c).val / 128
    split_ifs at hs <;> omega
  | ⟨2, _⟩ =>
    show (b.val * 256 + c.val) % 128 = (swapc c).val % 128
    split_ifs at hs <;> omega

/-! ## The two products of the first round -/

/-- The input product of the first round, with its bias, at row `b` and gate row `q`. -/
theorem v7_at (x0 : (⟨S4096x2x128, .f32⟩ : BufTy).Contents (Elt Ideal)) (x1 : (⟨S768x256, .f32⟩ : BufTy).Contents (Elt Ideal))
    (x3 : (⟨S768, .f32⟩ : BufTy).Contents (Elt Ideal)) (b : Fin 4096) (q : Fin 768) :
    val_main_v7 (F := Ideal) x0 x1 x3 (ix2 b q) = giR (rowOf x0 b) (fun q c => x1 (ix2 q c)) (fun q => x3 (ix1 q)) q := by
  rw [val_main_v7_apply, Ideal.addf_def, val_main_v4_apply, val_main_v6_apply, val_main_v5_apply]
  unfold giR
  refine congrArg₂ (· + ·) (Finset.sum_congr rfl fun k _ => ?_) (congrArg x3 (funext fun a => ?_))
  · have hl : lidx_main_v4 (ix2 b q) k = ix2 b k := funext fun a => by
      match a with | ⟨0, _⟩ => rfl | ⟨1, _⟩ => rfl
    rw [hl, v1_at, val_main_v3_apply]
    refine congrArg (rowOf x0 b (swapc k) * ·) (congrArg x1 (funext fun a => ?_))
    match a with | ⟨0, _⟩ => rfl | ⟨1, _⟩ => rfl
  · match a with | ⟨0, _⟩ => rfl

/-- The hidden product of the first round, with its bias, at row `b` and gate row `q`. -/
theorem v12_at (x0 : (⟨S4096x2x128, .f32⟩ : BufTy).Contents (Elt Ideal)) (x2 : (⟨S768x256, .f32⟩ : BufTy).Contents (Elt Ideal))
    (x4 : (⟨S768, .f32⟩ : BufTy).Contents (Elt Ideal)) (b : Fin 4096) (q : Fin 768) :
    val_main_v12 (F := Ideal) x0 x2 x4 (ix2 b q) = ghR (rowOf x0 b) (fun q c => x2 (ix2 q c)) (fun q => x4 (ix1 q)) q := by
  rw [val_main_v12_apply, Ideal.addf_def, val_main_v9_apply, val_main_v11_apply, val_main_v10_apply]
  unfold ghR
  refine congrArg₂ (· + ·) (Finset.sum_congr rfl fun k _ => ?_) (congrArg x4 (funext fun a => ?_))
  · have hl : lidx_main_v9 (ix2 b q) k = ix2 b k := funext fun a => by
      match a with | ⟨0, _⟩ => rfl | ⟨1, _⟩ => rfl
    rw [hl, v2_at, val_main_v8_apply]
    refine congrArg (rowOf x0 b k * ·) (congrArg x2 (funext fun a => ?_))
    match a with | ⟨0, _⟩ => rfl | ⟨1, _⟩ => rfl
  · match a with | ⟨0, _⟩ => rfl

/-! ## One entry of a round -/

/-- One entry of a round from the six product entries it reads (reset, update, candidate of the input product, then of
    the hidden product) and the row's own entry. -/
def cell (gir giz gin ghr ghz ghn x : EReal) : EReal :=
  (one - sigR (giz + ghz)) * Ideal.tanh (gin + sigR (gir + ghr) * ghn) + sigR (giz + ghz) * x

/-- The round as written is `cell` of the products at rows `j`, `256 + j`, `512 + j`. -/
theorem stepR_cell (x : Fin 256 → EReal) (Wih Whh : Fin 768 → Fin 256 → EReal) (bih bhh : Fin 768 → EReal) (j : Fin 256) :
    stepR x Wih Whh bih bhh j
      = cell (giR x Wih bih ⟨j.val, by omega⟩) (giR x Wih bih ⟨256 + j.val, by omega⟩) (giR x Wih bih ⟨512 + j.val, by omega⟩)
          (ghR x Whh bhh ⟨j.val, by omega⟩) (ghR x Whh bhh ⟨256 + j.val, by omega⟩) (ghR x Whh bhh ⟨512 + j.val, by omega⟩)
          (x j) := rfl

/-- Entry `(b, j)` of the first round's result is `cell` of the two products' entries in row `b` and the row's entry. -/
theorem v40_cell (x0 : (⟨S4096x2x128, .f32⟩ : BufTy).Contents (Elt Ideal)) (x1 x2 : (⟨S768x256, .f32⟩ : BufTy).Contents (Elt Ideal)) (x3 x4 : (⟨S768, .f32⟩ : BufTy).Contents (Elt Ideal)) (b : Fin 4096) (j : Fin 256) :
    val_main_v40 (F := Ideal) x0 x1 x2 x3 x4 (ix2 b j)
      = cell (val_main_v7 (F := Ideal) x0 x1 x3 (ix2 b (⟨j.val, by omega⟩ : Fin 768))) (val_main_v7 (F := Ideal) x0 x1 x3 (ix2 b (⟨256 + j.val, by omega⟩ : Fin 768))) (val_main_v7 (F := Ideal) x0 x1 x3 (ix2 b (⟨512 + j.val, by omega⟩ : Fin 768)))
          (val_main_v12 (F := Ideal) x0 x2 x4 (ix2 b (⟨j.val, by omega⟩ : Fin 768))) (val_main_v12 (F := Ideal) x0 x2 x4 (ix2 b (⟨256 + j.val, by omega⟩ : Fin 768))) (val_main_v12 (F := Ideal) x0 x2 x4 (ix2 b (⟨512 + j.val, by omega⟩ : Fin 768)))
          (val_main_v2 (F := Ideal) x0 (ix2 b j)) := by
  have s13 : val_main_v13 (F := Ideal) x0 x1 x3 (ix2 b j) = val_main_v7 (F := Ideal) x0 x1 x3 (ix2 b (⟨j.val, by omega⟩ : Fin 768)) := by
    rw [val_main_v13_apply]
    exact congrArg (val_main_v7 (F := Ideal) x0 x1 x3) (funext fun a => by match a with | ⟨0, _⟩ => rfl | ⟨1, _⟩ => rfl)
  have s14 : val_main_v14 (F := Ideal) x0 x1 x3 (ix2 b j) = val_main_v7 (F := Ideal) x0 x1 x3 (ix2 b (⟨256 + j.val, by omega⟩ : Fin 768)) := by
    rw [val_main_v14_apply]
    exact congrArg (val_main_v7 (F := Ideal) x0 x1 x3) (funext fun a => by match a with | ⟨0, _⟩ => rfl | ⟨1, _⟩ => rfl)
  have s15 : val_main_v15 (F := Ideal) x0 x1 x3 (ix2 b j) = val_main_v7 (F := Ideal) x0 x1 x3 (ix2 b (⟨512 + j.val, by omega⟩ : Fin 768)) := by
    rw [val_main_v15_apply]
    exact congrArg (val_main_v7 (F := Ideal) x0 x1 x3) (funext fun a => by match a with | ⟨0, _⟩ => rfl | ⟨1, _⟩ => rfl)
  have s16 : val_main_v16 (F := Ideal) x0 x2 x4 (ix2 b j) = val_main_v12 (F := Ideal) x0 x2 x4 (ix2 b (⟨j.val, by omega⟩ : Fin 768)) := by
    rw [val_main_v16_apply]
    exact congrArg (val_main_v12 (F := Ideal) x0 x2 x4) (funext fun a => by match a with | ⟨0, _⟩ => rfl | ⟨1, _⟩ => rfl)
  have s17 : val_main_v17 (F := Ideal) x0 x2 x4 (ix2 b j) = val_main_v12 (F := Ideal) x0 x2 x4 (ix2 b (⟨256 + j.val, by omega⟩ : Fin 768)) := by
    rw [val_main_v17_apply]
    exact congrArg (val_main_v12 (F := Ideal) x0 x2 x4) (funext fun a => by match a with | ⟨0, _⟩ => rfl | ⟨1, _⟩ => rfl)
  have s18 : val_main_v18 (F := Ideal) x0 x2 x4 (ix2 b j) = val_main_v12 (F := Ideal) x0 x2 x4 (ix2 b (⟨512 + j.val, by omega⟩ : Fin 768)) := by
    rw [val_main_v18_apply]
    exact congrArg (val_main_v12 (F := Ideal) x0 x2 x4) (funext fun a => by match a with | ⟨0, _⟩ => rfl | ⟨1, _⟩ => rfl)
  have c22 : val_main_v22 (F := Ideal) (ix2 b j) = one := by
    rw [val_main_v22_apply, val_main_cst_apply]; rfl
  have c24 : val_main_v24 (F := Ideal) (ix2 b j) = one := by
    rw [val_main_v24_apply, val_main_cst_0_apply]; rfl
  have c29 : val_main_v29 (F := Ideal) (ix2 b j) = one := by
    rw [val_main_v29_apply, val_main_cst_1_apply]; rfl
  have c31 : val_main_v31 (F := Ideal) (ix2 b j) = one := by
    rw [val_main_v31_apply, val_main_cst_2_apply]; rfl
  have c36 : val_main_v36 (F := Ideal) (ix2 b j) = one := by
    rw [val_main_v36_apply, val_main_cst_3_apply]; rfl
  simp only [val_main_v40_apply, val_main_v39_apply, val_main_v38_apply, val_main_v37_apply, val_main_v35_apply, val_main_v34_apply, val_main_v33_apply, val_main_v32_apply, val_main_v30_apply, val_main_v28_apply, val_main_v27_apply, val_main_v26_apply, val_main_v25_apply, val_main_v23_apply, val_main_v21_apply, val_main_v20_apply, val_main_v19_apply,
    s13, s14, s15, s16, s17, s18, c22, c24, c29, c31, c36]
  generalize val_main_v7 (F := Ideal) x0 x1 x3 = G
  generalize val_main_v12 (F := Ideal) x0 x2 x4 = H
  generalize val_main_v2 (F := Ideal) x0 = X
  rfl

/-- The first round at row `b`. -/
theorem v40_at (x0 : (⟨S4096x2x128, .f32⟩ : BufTy).Contents (Elt Ideal)) (x1 x2 : (⟨S768x256, .f32⟩ : BufTy).Contents (Elt Ideal)) (x3 x4 : (⟨S768, .f32⟩ : BufTy).Contents (Elt Ideal)) (b : Fin 4096) (j : Fin 256) :
    val_main_v40 (F := Ideal) x0 x1 x2 x3 x4 (ix2 b j) = stepR (rowOf x0 b) (fun q c => x1 (ix2 q c)) (fun q c => x2 (ix2 q c)) (fun q => x3 (ix1 q)) (fun q => x4 (ix1 q)) j := by
  rw [v40_cell, stepR_cell, v7_at, v7_at, v7_at, v12_at, v12_at, v12_at, v2_at]

/-! ## The second round reads the first round's result -/

/-- Splitting the columns into two nodes and flattening again reads the same entry. -/
theorem v44_at (x0 : (⟨S4096x2x128, .f32⟩ : BufTy).Contents (Elt Ideal)) (x1 x2 : (⟨S768x256, .f32⟩ : BufTy).Contents (Elt Ideal)) (x3 x4 : (⟨S768, .f32⟩ : BufTy).Contents (Elt Ideal)) (b : Fin 4096) (c : Fin 256) :
    val_main_v44 (F := Ideal) x0 x1 x2 x3 x4 (ix2 b c) = val_main_v40 (F := Ideal) x0 x1 x2 x3 x4 (ix2 b c) := by
  rw [val_main_v44_apply, val_main_v41_apply]
  generalize val_main_v40 (F := Ideal) x0 x1 x2 x3 x4 = h1
  refine congrArg h1 (funext fun a => Fin.ext ?_)
  have hb := b.isLt
  have hc := c.isLt
  match a with
  | ⟨0, _⟩ =>
    show (((b.val * 256 + c.val) / 256 * 2 + (b.val * 256 + c.val) / 128 % 2) * 128 + (b.val * 256 + c.val) % 128) / 256 = b.val
    omega
  | ⟨1, _⟩ =>
    show (((b.val * 256 + c.val) / 256 * 2 + (b.val * 256 + c.val) / 128 % 2) * 128 + (b.val * 256 + c.val) % 128) % 256 = c.val
    omega

/-- Splitting the columns into two nodes, reversing the node axis and flattening again reads the exchanged column. -/
theorem v43_at (x0 : (⟨S4096x2x128, .f32⟩ : BufTy).Contents (Elt Ideal)) (x1 x2 : (⟨S768x256, .f32⟩ : BufTy).Contents (Elt Ideal)) (x3 x4 : (⟨S768, .f32⟩ : BufTy).Contents (Elt Ideal)) (b : Fin 4096) (c : Fin 256) :
    val_main_v43 (F := Ideal) x0 x1 x2 x3 x4 (ix2 b c) = val_main_v40 (F := Ideal) x0 x1 x2 x3 x4 (ix2 b (swapc c)) := by
  rw [val_main_v43_apply]
  unfold val_main_v42 Host.reverse
  rw [val_main_v41_apply]
  generalize val_main_v40 (F := Ideal) x0 x1 x2 x3 x4 = h1
  refine congrArg h1 (funext fun a => Fin.ext ?_)
  have hb := b.isLt
  have hc := c.isLt
  have hs := swapc_val c
  match a with
  | ⟨0, _⟩ =>
    show (((b.val * 256 + c.val) / 256 * 2 + (2 - ((b.val * 256 + c.val) / 128 % 2 + 1))) * 128 + (b.val * 256 + c.val) % 128) / 256 = b.val
    omega
  | ⟨1, _⟩ =>
    show (((b.val * 256 + c.val) / 256 * 2 + (2 - ((b.val * 256 + c.val) / 128 % 2 + 1))) * 128 + (b.val * 256 + c.val) % 128) % 256 = (swapc c).val
    split_ifs at hs <;> omega

/-- The input product of the second round, with its bias. -/
theorem v49_at (x0 : (⟨S4096x2x128, .f32⟩ : BufTy).Contents (Elt Ideal)) (x1 x2 : (⟨S768x256, .f32⟩ : BufTy).Contents (Elt Ideal)) (x3 x4 : (⟨S768, .f32⟩ : BufTy).Contents (Elt Ideal)) (b : Fin 4096) (q : Fin 768) :
    val_main_v49 (F := Ideal) x0 x1 x2 x3 x4 (ix2 b q) = giR (fun c => val_main_v40 (F := Ideal) x0 x1 x2 x3 x4 (ix2 b c)) (fun q c => x1 (ix2 q c)) (fun q => x3 (ix1 q)) q := by
  rw [val_main_v49_apply, Ideal.addf_def, val_main_v46_apply, val_main_v48_apply, val_main_v47_apply]
  unfold giR
  refine congrArg₂ (· + ·) (Finset.sum_congr rfl fun k _ => ?_) (congrArg x3 (funext fun a => ?_))
  · have hl : lidx_main_v46 (ix2 b q) k = ix2 b k := funext fun a => by
      match a with | ⟨0, _⟩ => rfl | ⟨1, _⟩ => rfl
    rw [hl, v43_at, val_main_v45_apply]
    generalize val_main_v40 (F := Ideal) x0 x1 x2 x3 x4 = h1
    refine congrArg (h1 (ix2 b (swapc k)) * ·) (congrArg x1 (funext fun a => ?_))
    match a with | ⟨0, _⟩ => rfl | ⟨1, _⟩ => rfl
  · match a with | ⟨0, _⟩ => rfl

/-- The hidden product of the second round, with its bias. -/
theorem v54_at (x0 : (⟨S4096x2x128, .f32⟩ : BufTy).Contents (Elt Ideal)) (x1 x2 : (⟨S768x256, .f32⟩ : BufTy).Contents (Elt Ideal)) (x3 x4 : (⟨S768, .f32⟩ : BufTy).Contents (Elt Ideal)) (b : Fin 4096) (q : Fin 768) :
    val_main_v54 (F := Ideal) x0 x1 x2 x3 x4 (ix2 b q) = ghR (fun c => val_main_v40 (F := Ideal) x0 x1 x2 x3 x4 (ix2 b c)) (fun q c => x2 (ix2 q c)) (fun q => x4 (ix1 q)) q := by
  rw [val_main_v54_apply, Ideal.addf_def, val_main_v51_apply, val_main_v53_apply, val_main_v52_apply]
  unfold ghR
  refine congrArg₂ (· + ·) (Finset.sum_congr rfl fun k _ => ?_) (congrArg x4 (funext fun a => ?_))
  · have hl : lidx_main_v51 (ix2 b q) k = ix2 b k := funext fun a => by
      match a with | ⟨0, _⟩ => rfl | ⟨1, _⟩ => rfl
    rw [hl, v44_at, val_main_v50_apply]
    generalize val_main_v40 (F := Ideal) x0 x1 x2 x3 x4 = h1
    refine congrArg (h1 (ix2 b k) * ·) (congrArg x2 (funext fun a => ?_))
    match a with | ⟨0, _⟩ => rfl | ⟨1, _⟩ => rfl
  · match a with | ⟨0, _⟩ => rfl

/-- Entry `(b, j)` of the second round's result is `cell` of the two products' entries in row `b` and the row's entry. -/
theorem v82_cell (x0 : (⟨S4096x2x128, .f32⟩ : BufTy).Contents (Elt Ideal)) (x1 x2 : (⟨S768x256, .f32⟩ : BufTy).Contents (Elt Ideal)) (x3 x4 : (⟨S768, .f32⟩ : BufTy).Contents (Elt Ideal)) (b : Fin 4096) (j : Fin 256) :
    val_main_v82 (F := Ideal) x0 x1 x2 x3 x4 (ix2 b j)
      = cell (val_main_v49 (F := Ideal) x0 x1 x2 x3 x4 (ix2 b (⟨j.val, by omega⟩ : Fin 768))) (val_main_v49 (F := Ideal) x0 x1 x2 x3 x4 (ix2 b (⟨256 + j.val, by omega⟩ : Fin 768))) (val_main_v49 (F := Ideal) x0 x1 x2 x3 x4 (ix2 b (⟨512 + j.val, by omega⟩ : Fin 768)))
          (val_main_v54 (F := Ideal) x0 x1 x2 x3 x4 (ix2 b (⟨j.val, by omega⟩ : Fin 768))) (val_main_v54 (F := Ideal) x0 x1 x2 x3 x4 (ix2 b (⟨256 + j.val, by omega⟩ : Fin 768))) (val_main_v54 (F := Ideal) x0 x1 x2 x3 x4 (ix2 b (⟨512 + j.val, by omega⟩ : Fin 768)))
          (val_main_v44 (F := Ideal) x0 x1 x2 x3 x4 (ix2 b j)) := by
  have s13 : val_main_v55 (F := Ideal) x0 x1 x2 x3 x4 (ix2 b j) = val_main_v49 (F := Ideal) x0 x1 x2 x3 x4 (ix2 b (⟨j.val, by omega⟩ : Fin 768)) := by
    rw [val_main_v55_apply]
    exact congrArg (val_main_v49 (F := Ideal) x0 x1 x2 x3 x4) (funext fun a => by match a with | ⟨0, _⟩ => rfl | ⟨1, _⟩ => rfl)
  have s14 : val_main_v56 (F := Ideal) x0 x1 x2 x3 x4 (ix2 b j) = val_main_v49 (F := Ideal) x0 x1 x2 x3 x4 (ix2 b (⟨256 + j.val, by omega⟩ : Fin 768)) := by
    rw [val_main_v56_apply]
    exact congrArg (val_main_v49 (F := Ideal) x0 x1 x2 x3 x4) (funext fun a => by match a with | ⟨0, _⟩ => rfl | ⟨1, _⟩ => rfl)
  have s15 : val_main_v57 (F := Ideal) x0 x1 x2 x3 x4 (ix2 b j) = val_main_v49 (F := Ideal) x0 x1 x2 x3 x4 (ix2 b (⟨512 + j.val, by omega⟩ : Fin 768)) := by
    rw [val_main_v57_apply]
    exact congrArg (val_main_v49 (F := Ideal) x0 x1 x2 x3 x4) (funext fun a => by match a with | ⟨0, _⟩ => rfl | ⟨1, _⟩ => rfl)
  have s16 : val_main_v58 (F := Ideal) x0 x1 x2 x3 x4 (ix2 b j) = val_main_v54 (F := Ideal) x0 x1 x2 x3 x4 (ix2 b (⟨j.val, by omega⟩ : Fin 768)) := by
    rw [val_main_v58_apply]
    exact congrArg (val_main_v54 (F := Ideal) x0 x1 x2 x3 x4) (funext fun a => by match a with | ⟨0, _⟩ => rfl | ⟨1, _⟩ => rfl)
  have s17 : val_main_v59 (F := Ideal) x0 x1 x2 x3 x4 (ix2 b j) = val_main_v54 (F := Ideal) x0 x1 x2 x3 x4 (ix2 b (⟨256 + j.val, by omega⟩ : Fin 768)) := by
    rw [val_main_v59_apply]
    exact congrArg (val_main_v54 (F := Ideal) x0 x1 x2 x3 x4) (funext fun a => by match a with | ⟨0, _⟩ => rfl | ⟨1, _⟩ => rfl)
  have s18 : val_main_v60 (F := Ideal) x0 x1 x2 x3 x4 (ix2 b j) = val_main_v54 (F := Ideal) x0 x1 x2 x3 x4 (ix2 b (⟨512 + j.val, by omega⟩ : Fin 768)) := by
    rw [val_main_v60_apply]
    exact congrArg (val_main_v54 (F := Ideal) x0 x1 x2 x3 x4) (funext fun a => by match a with | ⟨0, _⟩ => rfl | ⟨1, _⟩ => rfl)
  have c22 : val_main_v64 (F := Ideal) (ix2 b j) = one := by
    rw [val_main_v64_apply, val_main_cst_4_apply]; rfl
  have c24 : val_main_v66 (F := Ideal) (ix2 b j) = one := by
    rw [val_main_v66_apply, val_main_cst_5_apply]; rfl
  have c29 : val_main_v71 (F := Ideal) (ix2 b j) = one := by
    rw [val_main_v71_apply, val_main_cst_6_apply]; rfl
  have c31 : val_main_v73 (F := Ideal) (ix2 b j) = one := by
    rw [val_main_v73_apply, val_main_cst_7_apply]; rfl
  have c36 : val_main_v78 (F := Ideal) (ix2 b j) = one := by
    rw [val_main_v78_apply, val_main_cst_8_apply]; rfl
  simp only [val_main_v82_apply, val_main_v81_apply, val_main_v80_apply, val_main_v79_apply, val_main_v77_apply, val_main_v76_apply, val_main_v75_apply, val_main_v74_apply, val_main_v72_apply, val_main_v70_apply, val_main_v69_apply, val_main_v68_apply, val_main_v67_apply, val_main_v65_apply, val_main_v63_apply, val_main_v62_apply, val_main_v61_apply,
    s13, s14, s15, s16, s17, s18, c22, c24, c29, c31, c36]
  generalize val_main_v49 (F := Ideal) x0 x1 x2 x3 x4 = G
  generalize val_main_v54 (F := Ideal) x0 x1 x2 x3 x4 = H
  generalize val_main_v44 (F := Ideal) x0 x1 x2 x3 x4 = X
  rfl

/-- The second round at row `b`, over the first round's row. -/
theorem v82_at (x0 : (⟨S4096x2x128, .f32⟩ : BufTy).Contents (Elt Ideal)) (x1 x2 : (⟨S768x256, .f32⟩ : BufTy).Contents (Elt Ideal)) (x3 x4 : (⟨S768, .f32⟩ : BufTy).Contents (Elt Ideal)) (b : Fin 4096) (j : Fin 256) :
    val_main_v82 (F := Ideal) x0 x1 x2 x3 x4 (ix2 b j) = stepR (fun c => val_main_v40 (F := Ideal) x0 x1 x2 x3 x4 (ix2 b c)) (fun q c => x1 (ix2 q c)) (fun q c => x2 (ix2 q c)) (fun q => x3 (ix1 q)) (fun q => x4 (ix1 q)) j := by
  rw [v82_cell, stepR_cell, v49_at, v49_at, v49_at, v54_at, v54_at, v54_at, v44_at]

/-! ## The two layers after the rounds -/

/-- Splitting the columns into two nodes and flattening again reads the same entry of the second round's result. -/
theorem v84_at (x0 : (⟨S4096x2x128, .f32⟩ : BufTy).Contents (Elt Ideal)) (x1 x2 : (⟨S768x256, .f32⟩ : BufTy).Contents (Elt Ideal)) (x3 x4 : (⟨S768, .f32⟩ : BufTy).Contents (Elt Ideal)) (b : Fin 4096) (c : Fin 256) :
    val_main_v84 (F := Ideal) x0 x1 x2 x3 x4 (ix2 b c) = val_main_v82 (F := Ideal) x0 x1 x2 x3 x4 (ix2 b c) := by
  rw [val_main_v84_apply, val_main_v83_apply]
  generalize val_main_v82 (F := Ideal) x0 x1 x2 x3 x4 = h2
  refine congrArg h2 (funext fun a => Fin.ext ?_)
  have hb := b.isLt
  have hc := c.isLt
  match a with
  | ⟨0, _⟩ =>
    show (((b.val * 256 + c.val) / 256 * 2 + (b.val * 256 + c.val) / 128 % 2) * 128 + (b.val * 256 + c.val) % 128) / 256 = b.val
    omega
  | ⟨1, _⟩ =>
    show (((b.val * 256 + c.val) / 256 * 2 + (b.val * 256 + c.val) / 128 % 2) * 128 + (b.val * 256 + c.val) % 128) % 256 = c.val
    omega

/-- The first layer with its bias, then the maximum with zero, at row `b` and unit `f`. -/
theorem v90_at (x0 : (⟨S4096x2x128, .f32⟩ : BufTy).Contents (Elt Ideal)) (x1 x2 : (⟨S768x256, .f32⟩ : BufTy).Contents (Elt Ideal)) (x3 x4 : (⟨S768, .f32⟩ : BufTy).Contents (Elt Ideal)) (x5 : (⟨S256x256, .f32⟩ : BufTy).Contents (Elt Ideal)) (x6 : (⟨S256, .f32⟩ : BufTy).Contents (Elt Ideal)) (b : Fin 4096) (f : Fin 256) :
    val_main_v90 (F := Ideal) x0 x1 x2 x3 x4 x5 x6 (ix2 b f)
      = max ((∑ c : Fin 256, val_main_v82 (F := Ideal) x0 x1 x2 x3 x4 (ix2 b c) * x5 (ix2 f c)) + x6 (ix1 f)) zero := by
  rw [val_main_v90_apply, Ideal.maximumf_def, val_main_v89_apply, Ideal.addf_def, val_main_v86_apply, val_main_v88_apply,
    val_main_v87_apply, val_main_call0_v0_apply, val_main_call0_cst_apply]
  refine congrArg₂ max (congrArg₂ (· + ·) (Finset.sum_congr rfl fun k _ => ?_) (congrArg x6 (funext fun a => ?_))) rfl
  · have hl : lidx_main_v86 (ix2 b f) k = ix2 b k := funext fun a => by
      match a with | ⟨0, _⟩ => rfl | ⟨1, _⟩ => rfl
    rw [hl, v84_at, val_main_v85_apply]
    generalize val_main_v82 (F := Ideal) x0 x1 x2 x3 x4 = h2
    refine congrArg (h2 (ix2 b k) * ·) (congrArg x5 (funext fun a => ?_))
    match a with | ⟨0, _⟩ => rfl | ⟨1, _⟩ => rfl
  · match a with | ⟨0, _⟩ => rfl

/-- The reference's result at row `b` is the two layers applied to the second round's row. -/
theorem v95_at (x0 : (⟨S4096x2x128, .f32⟩ : BufTy).Contents (Elt Ideal)) (x1 x2 : (⟨S768x256, .f32⟩ : BufTy).Contents (Elt Ideal)) (x3 x4 : (⟨S768, .f32⟩ : BufTy).Contents (Elt Ideal)) (x5 : (⟨S256x256, .f32⟩ : BufTy).Contents (Elt Ideal)) (x6 : (⟨S256, .f32⟩ : BufTy).Contents (Elt Ideal)) (x7 : (⟨S1x256, .f32⟩ : BufTy).Contents (Elt Ideal)) (x8 : (⟨S1, .f32⟩ : BufTy).Contents (Elt Ideal)) (b : Fin 4096) :
    val_main_v95 (F := Ideal) x0 x1 x2 x3 x4 x5 x6 x7 x8 (ix2 b (0 : Fin 1))
      = head (fun c => val_main_v82 (F := Ideal) x0 x1 x2 x3 x4 (ix2 b c)) (fun f c => x5 (ix2 f c)) (fun f => x6 (ix1 f))
          (fun f => x7 (ix2 (0 : Fin 1) f)) (x8 (ix1 (0 : Fin 1))) := by
  rw [val_main_v95_apply, Ideal.addf_def, val_main_v92_apply, val_main_v94_apply, val_main_v93_apply]
  unfold head
  refine congrArg₂ (· + ·) (Finset.sum_congr rfl fun f _ => ?_) (congrArg x8 (funext fun a => ?_))
  · have hl : lidx_main_v92 (ix2 b (0 : Fin 1)) f = ix2 b f := funext fun a => by
      match a with | ⟨0, _⟩ => rfl | ⟨1, _⟩ => rfl
    rw [hl, v90_at, val_main_v91_apply]
    generalize val_main_v82 (F := Ideal) x0 x1 x2 x3 x4 = h2
    refine congrArg (max ((∑ c : Fin 256, h2 (ix2 b c) * x5 (ix2 f c)) + x6 (ix1 f)) zero * ·) (congrArg x7 (funext fun a => ?_))
    match a with | ⟨0, _⟩ => rfl | ⟨1, _⟩ => rfl
  · match a with | ⟨0, _⟩ => rfl

/-! ## The reference at one batch row -/

/-- The reference's result at batch row `b` is the network in the reference's arrangement on row `b` of the features. -/
theorem ref_row (x0 : (⟨S4096x2x128, .f32⟩ : BufTy).Contents (Elt Ideal)) (x1 x2 : (⟨S768x256, .f32⟩ : BufTy).Contents (Elt Ideal))
    (x3 x4 : (⟨S768, .f32⟩ : BufTy).Contents (Elt Ideal)) (x5 : (⟨S256x256, .f32⟩ : BufTy).Contents (Elt Ideal))
    (x6 : (⟨S256, .f32⟩ : BufTy).Contents (Elt Ideal)) (x7 : (⟨S1x256, .f32⟩ : BufTy).Contents (Elt Ideal))
    (x8 : (⟨S1, .f32⟩ : BufTy).Contents (Elt Ideal)) (b : Fin 4096) :
    val_main_v95 (F := Ideal) x0 x1 x2 x3 x4 x5 x6 x7 x8 (ix2 b (0 : Fin 1)) = outR x0 x1 x2 x3 x4 x5 x6 x7 x8 b := by
  rw [v95_at]
  unfold outR netR
  refine congrArg (fun x => head x (fun f c => x5 (ix2 f c)) (fun f => x6 (ix1 f)) (fun f => x7 (ix2 (0 : Fin 1) f)) (x8 (ix1 (0 : Fin 1))))
    (funext fun c => ?_)
  rw [v82_at]
  exact congrArg (fun x => stepR x (fun q c => x1 (ix2 q c)) (fun q c => x2 (ix2 q c)) (fun q => x3 (ix1 q)) (fun q => x4 (ix1 q)) c) (funext fun c' => v40_at x0 x1 x2 x3 x4 b c')

end Cert.GruNet.Ref

end
-- ==== Proof.LibNtMatmul.lean ====
/-
  A matrix product with the right operand contracted on its LAST axis, read at an index, at the ideal values.

  For the dimension numbers of the product of an `M × K` matrix by the transpose of an `N × K` matrix (contract axis 1
  of both operands, no batch axis), the product accumulated into the zero matrix is, at row `r` and column `e`, the sum
  over `k < K` of `lhs (r, k) * rhs (e, k)` on the extended reals, whatever float formats label the two operands (every
  format is the extended reals there). Stated over literal-size coordinates (`ix2 r e`) so that it applies to a printed
  product by unification; a printed record of dimension numbers with the lists [1], [1], [0], [0], [], [] is
  `DotDims.transposedRhs M K N` up to the proof of its well-formedness, which is irrelevant.
-/
import Idealize.ShloMosaic.Lib.ValueIdx
import Idealize.ShloMosaic.PureOps.Ideal.Laws

noncomputable section

namespace Idealize.ShloMosaic.NtMatmul

open Idealize.ShloMosaic Idealize.ShloMosaic.ValueIdx

/-- The contraction shape has one axis, of extent `K`. -/
theorem contr_rank (M K N : ℕ) : (DotDims.transposedRhs M K N).contr.rank = 1 := rfl

theorem contr_size (M K N : ℕ) : (DotDims.transposedRhs M K N).contr.size ⟨0, by rw [contr_rank]; exact Nat.one_pos⟩ = K := rfl

theorem lhs_val0 (M K N : ℕ) (j : (⟨2, ![M, N]⟩ : Shape).Idx) (q : (DotDims.transposedRhs M K N).contr.Idx) :
    ((DotDims.transposedRhs M K N).lhsIdx j q 0).val = (j 0).val := rfl
theorem lhs_val1 (M K N : ℕ) (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q
theorem rhs_val0 (M K N : ℕ) (j : (⟨2, ![M, N]⟩ : Shape).Idx) (q : (DotDims.transposedRhs M K N).contr.Idx) :
    ((DotDims.transposedRhs M K N).rhsIdx j q 0).val = (j 1).val := rfl
theorem rhs_val1 (M K N : ℕ) (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- At output `(r, e)` and contraction coordinate `k` the left operand is read at `(r, k)` and the right at `(e, k)`. -/
theorem lhsIdx_eq (M K N : ℕ) (r : Fin M) (e : Fin N) (k : Fin K) :
    (DotDims.transposedRhs M K N).lhsIdx (ix2 r e) ((contrEquiv1 (DotDims.transposedRhs M K N) K (contr_rank M K N) (contr_size M K N)).symm k) = ix2 r k := by
  have hk := contrEquiv1_symm_val (DotDims.transposedRhs M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.transposedRhs M K N).rhsIdx (ix2 r e) ((contrEquiv1 (DotDims.transposedRhs M K N) K (contr_rank M K N) (contr_size M K N)).symm k) = ix2 e k := by
  have hk := contrEquiv1_symm_val (DotDims.transposedRhs M K N) K (contr_rank M K N) (contr_size M K N) k
  funext a
  refine Fin.ext ?_
  match a with
  | ⟨0, _⟩ => exact rhs_val0 M K N _ _
  | ⟨1, _⟩ => exact (rhs_val1 M K N _ _).trans hk

/-- The product into the zero matrix, at `(r, e)`: the sum over the shared last axis of the operands' products. -/
theorem matmul_zero_apply_fmt {φ₁ φ₂ : FTy} (M K N : ℕ) (prec : Option ContractPrecision)
    (lhs : FVec Ideal ⟨2, ![M, K]⟩ φ₁) (rhs : FVec Ideal ⟨2, ![N, K]⟩ φ₂) (r : Fin M) (e : Fin N) :
    matmul (DotDims.transposedRhs M K N) prec lhs rhs (constant (F := Ideal) ⟨2, ![M, N]⟩ .f32 0x00000000#32) (ix2 r e)
      = ∑ k : Fin K, lhs (ix2 r k) * rhs (ix2 e k) := by
  show FloatOps.matmul (DotDims.transposedRhs M K N) prec lhs rhs (constant (F := Ideal) ⟨2, ![M, N]⟩ .f32 0x00000000#32) (ix2 r e) = _
  rw [Ideal.matmul_constant_zero_apply, ← Equiv.sum_comp (contrEquiv1 (DotDims.transposedRhs M K N) K (contr_rank M K N) (contr_size M K N)).symm]
  refine Finset.sum_congr rfl fun k _ => ?_
  rw [lhsIdx_eq, rhsIdx_eq]

end Idealize.ShloMosaic.NtMatmul

end
-- ==== Proof.KernelRow.lean ====
/-
  One row of the kernel's output block is the network, in the kernel's arrangement, of that row of its input block.

  The kernel body computes on whole blocks: 1024 rows of 256 numbers, against the two 768 × 256 weight matrices, the two
  bias rows, the 256 × 256 matrix and bias of the first layer after the rounds and the row and bias of the last one.
  Read at row `p`, every step of it is the matching step of `netK` on row `p`:
  * the merged matrix: the input weights with their two column halves exchanged, their first 512 rows added to the
    hidden weights' first 512 rows, then rows 512–767 of the exchanged input weights, then rows 512–767 of the hidden
    weights, stacked — entry `(q, c)` is `mergedW q c`; the merged bias row likewise is `mergedB`;
  * the gate block of a round: the product of the rows with the transposed merged matrix plus the bias row broadcast
    over the rows — entry `(p, q)` is `gateK` of row `p` at `q`;
  * a round: four column slices of the gate block put through `1/2 * (1 + tanh (1/2 * u))`, `tanh` and the blend
    `n + z * (x - n)`, all entry by entry — entry `(p, j)` is `stepK` of row `p` at `j`;
  * after two rounds: the product with the transposed first-layer matrix plus its bias, the maximum with zero, the
    product entry by entry with the last layer's row, the sum along each row, plus the last bias — `head`.
  Nothing here is arithmetic on the extended reals: slices, concatenations and broadcasts are read at an index, a
  matrix product and a sum along an axis are written as finite sums, and entrywise operations are read entrywise.
-/
import proofs.«152082_g6846177870363_cont_9to1c4b_865_4_alg».proof.Proof.KernelValue
import proofs.«152082_g6846177870363_cont_9to1c4b_865_4_alg».proof.Proof.Spec
import proofs.«152082_g6846177870363_cont_9to1c4b_865_4_alg».proof.Proof.LibNtMatmul
import Idealize.ShloMosaic.Lib.ValueLayout
import Idealize.ShloMosaic.PureOps.Ideal.Laws

noncomputable section

namespace Cert.GruNet.Kern

open Cert.KernelIdeal Cert.KernelIdeal.Gen Idealize.ShloMosaic Idealize.ShloMosaic.ValueIdx Cert.GruNet
open scoped BigOperators

/-! ## Products and the sum along a row, as finite sums -/

/-- The two records of dimension numbers the kernel's products carry contract the last axis of both operands. -/
theorem dot_gate_eq : dot_S1024x256_S1024x256_S1024x1024_1_1_0_0_n_n = DotDims.transposedRhs 1024 256 1024 := rfl

theorem dot_fc_eq : dot_S1024x256_S256x256_S1024x256_1_1_0_0_n_n = DotDims.transposedRhs 1024 256 256 := rfl

/-- The product of the rows with a transposed 1024-row matrix, into the zero block, at `(p, q)`. -/
theorem gate_matmul_apply {φ₁ φ₂ : FTy} (lhs : FVec Ideal S1024x256 φ₁) (rhs : FVec Ideal S1024x256 φ₂) (p q : Fin 1024) :
    matmul dot_S1024x256_S1024x256_S1024x1024_1_1_0_0_n_n none lhs rhs (constant (F := Ideal) S1024x1024 .f32 0x00000000#32)
      (ix2 p q) = ∑ c : Fin 256, lhs (ix2 p c) * rhs (ix2 q c) := by
  rw [dot_gate_eq]
  exact NtMatmul.matmul_zero_apply_fmt 1024 256 1024 none lhs rhs p q

/-- The product of the rows with a transposed 256-row matrix, into the zero block, at `(p, f)`. -/
theorem fc_matmul_apply {φ₁ φ₂ : FTy} (lhs : FVec Ideal S1024x256 φ₁) (rhs : FVec Ideal S256x256 φ₂) (p : Fin 1024) (f : Fin 256) :
    matmul dot_S1024x256_S256x256_S1024x256_1_1_0_0_n_n none lhs rhs (constant (F := Ideal) S1024x256 .f32 0x00000000#32)
      (ix2 p f) = ∑ c : Fin 256, lhs (ix2 p c) * rhs (ix2 f c) := by
  rw [dot_fc_eq]
  exact NtMatmul.matmul_zero_apply_fmt 1024 256 256 none lhs rhs p f

/-- The sum along each row of a block, at row `p`. -/
theorem lane_sum_apply (src : FVec Ideal S1024x256 .f32) (p : Fin 1024) :
    multiReduction .add [1] S1024 src 0x00000000#32 reduces_S1024x256_S1024 (.inl rfl) rfl (ix1 p)
      = ∑ k : Fin 256, src (ix2 p k) := by
  refine (Ideal.multiReduction_add_single src 0x00000000#32 reduces_S1024x256_S1024 (.inl rfl) rfl (ix1 p)).trans ?_
  refine Finset.sum_congr rfl fun k _ => congrArg src ?_
  funext a
  refine Fin.ext ?_
  match a with
  | ⟨0, _⟩ => rfl
  | ⟨1, _⟩ => rfl

/-- `tanh` of a block is entrywise. -/
theorem tanhV_apply {s : Shape} {φ : FTy} (a : FVec Ideal s φ) (i : s.Idx) : tanh a i = Ideal.tanh (a i) := rfl

/-- A block filled with one float word holds that word's value. -/
theorem fill_apply {s : Shape} (w : BitVec 32) (i : s.Idx) :
    broadcast s (Scalar.ofBits (F := Ideal) .f32 w) i = Ideal.ofBits .f32 w := rfl

/-! ## The gate block of a round -/

/-- The gate block: the rows against the transposed gate matrix, plus the bias row broadcast over the rows. -/
def gatesV (h : FVec Ideal S1024x256 .f32) (M : FVec Ideal S1024x256 .bf16) (gbv : FVec Ideal S1x1024 .f32) :
    FVec Ideal S1024x1024 .f32 :=
  addf (matmul dot_S1024x256_S1024x256_S1024x1024_1_1_0_0_n_n none (truncf .bf16 h bitsLt_bf16_f32) M
      (constant (F := Ideal) S1024x1024 .f32 0x00000000#32))
    (broadcastTo S1024x1024 gbv broadcasts_S1x1024_S1024x1024)

/-- Entry `(p, q)` of the gate block is `gateK` of row `p` at `q`. -/
theorem gatesV_apply (h : FVec Ideal S1024x256 .f32) (M : FVec Ideal S1024x256 .bf16) (gbv : FVec Ideal S1x1024 .f32)
    (p q : Fin 1024) :
    gatesV h M gbv (ix2 p q)
      = gateK (fun c => h (ix2 p c)) (fun q c => M (ix2 q c)) (fun q => gbv (ix2 (0 : Fin 1) q)) q := by
  show matmul dot_S1024x256_S1024x256_S1024x1024_1_1_0_0_n_n none (truncf .bf16 h bitsLt_bf16_f32) M
        (constant (F := Ideal) S1024x1024 .f32 0x00000000#32) (ix2 p q)
      + broadcastTo S1024x1024 gbv broadcasts_S1x1024_S1024x1024 (ix2 p q) = _
  rw [gate_matmul_apply, broadcastTo_1b_ab_apply]
  rfl

/-! ## One round -/

/-- The reset gate of a round from its gate block: `1/2 * (1 + tanh (1/2 * u))` of the first 256 columns. -/
def rV (G : FVec Ideal S1024x1024 .f32) : FVec Ideal S1024x256 .f32 :=
  mulf (broadcast S1024x256 (Scalar.ofBits .f32 0x3F000000#32))
    (addf (broadcast S1024x256 (Scalar.ofBits .f32 0x3F800000#32))
      (tanh (mulf (broadcast S1024x256 (Scalar.ofBits .f32 0x3F000000#32))
        (extractStridedSlice S1024x256 ![0, 0] G slices_S1024x1024_o0_0_S1024x256))))

/-- `tanh` of half the update gate's argument: columns 256–511 of the gate block. -/
def tV (G : FVec Ideal S1024x1024 .f32) : FVec Ideal S1024x256 .f32 :=
  tanh (mulf (broadcast S1024x256 (Scalar.ofBits .f32 0x3F000000#32))
    (extractStridedSlice S1024x256 ![0, 256] G slices_S1024x1024_o0_256_S1024x256))

/-- The rest of a round from the rows, the gate block, the reset gate `r` and `t = tanh (1/2 * u_z)`: the update gate
    `1/2 * (1 + t)`, the candidate `n = tanh (G[:, 512:768] + r * G[:, 768:1024])`, the blend `n + z * (h - n)`. -/
def blendV (h : FVec Ideal S1024x256 .f32) (G : FVec Ideal S1024x1024 .f32) (r t : FVec Ideal S1024x256 .f32) :
    FVec Ideal S1024x256 .f32 :=
  addf
    (tanh (addf (extractStridedSlice S1024x256 ![0, 512] G slices_S1024x1024_o0_512_S1024x256)
      (mulf r (extractStridedSlice S1024x256 ![0, 768] G slices_S1024x1024_o0_768_S1024x256))))
    (mulf
      (mulf (broadcast S1024x256 (Scalar.ofBits .f32 0x3F000000#32))
        (addf (broadcast S1024x256 (Scalar.ofBits .f32 0x3F800000#32)) t))
      (subf h
        (tanh (addf (extractStridedSlice S1024x256 ![0, 512] G slices_S1024x1024_o0_512_S1024x256)
          (mulf r (extractStridedSlice S1024x256 ![0, 768] G slices_S1024x1024_o0_768_S1024x256))))))

/-- A round of the rows `h` over the gate block `G`. -/
def roundV (h : FVec Ideal S1024x256 .f32) (G : FVec Ideal S1024x1024 .f32) : FVec Ideal S1024x256 .f32 :=
  blendV h G (rV G) (tV G)

/-- A column slice of the gate block at `(p, j)` is the block at `(p, o + j)`. -/
theorem gslice_apply (o : Nat) (G : FVec Ideal S1024x1024 .f32) (hs : S1024x1024.Slices ![0, o] S1024x256)
    (p : Fin 1024) (j : Fin 256) (k : Fin 1024) (hk : k.val = o + j.val) :
    extractStridedSlice S1024x256 ![0, o] G hs (ix2 p j) = G (ix2 p k) :=
  slice2_axis1_apply o G hs p j k hk

/-- Entry `(p, j)` of a round, when row `p` of the rows is `x` and row `p` of the gate block is `gateK x M gb`:
    `stepK x M gb j`. -/
theorem roundV_apply (h : FVec Ideal S1024x256 .f32) (G : FVec Ideal S1024x1024 .f32) (p : Fin 1024)
    (x : Fin 256 → EReal) (M : Fin 1024 → Fin 256 → EReal) (gb : Fin 1024 → EReal)
    (hx : ∀ c : Fin 256, h (ix2 p c) = x c) (hG : ∀ q : Fin 1024, G (ix2 p q) = gateK x M gb q) (j : Fin 256) :
    roundV h G (ix2 p j) = stepK x M gb j := by
  have s0 : extractStridedSlice S1024x256 ![0, 0] G slices_S1024x1024_o0_0_S1024x256 (ix2 p j)
      = gateK x M gb ⟨j.val, by omega⟩ :=
    (gslice_apply 0 G _ p j ⟨j.val, by omega⟩ (by show j.val = 0 + j.val; omega)).trans (hG _)
  have s1 : extractStridedSlice S1024x256 ![0, 256] G slices_S1024x1024_o0_256_S1024x256 (ix2 p j)
      = gateK x M gb ⟨256 + j.val, by omega⟩ :=
    (gslice_apply 256 G _ p j ⟨256 + j.val, by omega⟩ rfl).trans (hG _)
  have s2 : extractStridedSlice S1024x256 ![0, 512] G slices_S1024x1024_o0_512_S1024x256 (ix2 p j)
      = gateK x M gb ⟨512 + j.val, by omega⟩ :=
    (gslice_apply 512 G _ p j ⟨512 + j.val, by omega⟩ rfl).trans (hG _)
  have s3 : extractStridedSlice S1024x256 ![0, 768] G slices_S1024x1024_o0_768_S1024x256 (ix2 p j)
      = gateK x M gb ⟨768 + j.val, by omega⟩ :=
    (gslice_apply 768 G _ p j ⟨768 + j.val, by omega⟩ rfl).trans (hG _)
  show Ideal.tanh (extractStridedSlice S1024x256 ![0, 512] G slices_S1024x1024_o0_512_S1024x256 (ix2 p j)
        + half * (one + Ideal.tanh (half * extractStridedSlice S1024x256 ![0, 0] G slices_S1024x1024_o0_0_S1024x256 (ix2 p j)))
          * extractStridedSlice S1024x256 ![0, 768] G slices_S1024x1024_o0_768_S1024x256 (ix2 p j))
      + half * (one + Ideal.tanh (half * extractStridedSlice S1024x256 ![0, 256] G slices_S1024x1024_o0_256_S1024x256 (ix2 p j)))
        * (h (ix2 p j)
          - Ideal.tanh (extractStridedSlice S1024x256 ![0, 512] G slices_S1024x1024_o0_512_S1024x256 (ix2 p j)
            + half * (one + Ideal.tanh (half * extractStridedSlice S1024x256 ![0, 0] G slices_S1024x1024_o0_0_S1024x256 (ix2 p j)))
              * extractStridedSlice S1024x256 ![0, 768] G slices_S1024x1024_o0_768_S1024x256 (ix2 p j)))
      = _
  rw [s0, s1, s2, s3, hx]
  rfl

/-! ## The merged matrix and the merged bias -/

/-- A 768 × 256 matrix with its two column halves exchanged: columns 128–255, then columns 0–127. -/
def swapV (X : FVec Ideal S768x256 .f32) : FVec Ideal S768x256 .f32 :=
  concatenate S768x256 1
    [⟨S768x128, extractStridedSlice S768x128 ![0, 128] X slices_S768x256_o0_128_S768x128⟩,
     ⟨S768x128, extractStridedSlice S768x128 ![0, 0] X slices_S768x256_o0_0_S768x128⟩]
    concatenates_S768x128_S768x128_S768x256_d1

/-- The exchanged matrix at `(r, c)` is the matrix at `(r, swapc c)`. -/
theorem swapcols_apply (X : FVec Ideal S768x256 .f32) (r : Fin 768) (c : Fin 256) :
    swapV X (ix2 r c) = X (ix2 r (swapc c)) := by
  unfold swapV
  by_cases hc : c.val < 128
  · have hsw : (swapc c).val = c.val + 128 := by unfold swapc; rw [dif_pos hc]
    refine (concatenate_pair_apply_left (t := S768x256) (s₁ := S768x128) (s₂ := S768x128) (1 : Fin 2)
      (extractStridedSlice S768x128 ![0, 128] X slices_S768x256_o0_128_S768x128)
      (extractStridedSlice S768x128 ![0, 0] X slices_S768x256_o0_0_S768x128)
      concatenates_S768x128_S768x128_S768x256_d1 (ix2 r c) rfl
      (ix2 r (⟨c.val, hc⟩ : Fin 128)) (fun b => ?_)).trans ?_
    · match b with
      | ⟨0, _⟩ => rfl
      | ⟨1, _⟩ => rfl
    · exact slice2_axis1_apply 128 X _ r ⟨c.val, hc⟩ (swapc c) (by show (swapc c).val = 128 + c.val; omega)
  · have hsw : (swapc c).val = c.val - 128 := by unfold swapc; rw [dif_neg hc]
    have hc' : c.val - 128 < 128 := by have := c.isLt; omega
    refine (concatenate_pair_apply_right (t := S768x256) (s₁ := S768x128) (s₂ := S768x128) (1 : Fin 2)
      (extractStridedSlice S768x128 ![0, 128] X slices_S768x256_o0_128_S768x128)
      (extractStridedSlice S768x128 ![0, 0] X slices_S768x256_o0_0_S768x128)
      concatenates_S768x128_S768x128_S768x256_d1 (ix2 r c) rfl rfl
      (ix2 r (⟨c.val - 128, hc'⟩ : Fin 128)) (fun b hb => ?_) ?_).trans ?_
    · match b with
      | ⟨0, _⟩ => rfl
      | ⟨1, _⟩ => exact absurd rfl hb
    · show (c.val - 128) + 128 = c.val
      omega
    · exact slice2_axis1_apply 0 X _ r ⟨c.val - 128, hc'⟩ (swapc c) (by show (swapc c).val = 0 + (c.val - 128); omega)

/-- Three blocks of 512, 256 and 256 rows stacked, at `(q, c)`: the block whose rows hold `q`, at `q` less the rows
    before it. -/
theorem stack3_apply (A : FVec Ideal S512x256 .f32) (B C : FVec Ideal S256x256 .f32) (q : Fin 1024) (c : Fin 256) :
    concatenate S1024x256 0 [⟨S512x256, A⟩, ⟨S256x256, B⟩, ⟨S256x256, C⟩]
        concatenates_S512x256_S256x256_S256x256_S1024x256_d0 (ix2 q c)
      = if h : q.val < 512 then A (ix2 (⟨q.val, h⟩ : Fin 512) c)
        else if h' : q.val < 768 then B (ix2 (⟨q.val - 512, by omega⟩ : Fin 256) c)
        else C (ix2 (⟨q.val - 768, by have := q.isLt; omega⟩ : Fin 256) c) := by
  by_cases h1 : q.val < 512
  · rw [dif_pos h1]
    refine concatenate_apply_piece (t := S1024x256) (0 : Fin 2) [⟨S512x256, A⟩, ⟨S256x256, B⟩, ⟨S256x256, C⟩]
      concatenates_S512x256_S256x256_S256x256_S1024x256_d0 (ix2 q c)
      0 (by show (0 : Nat) < 3; omega) S512x256 A rfl rfl 0 rfl (ix2 (⟨q.val, h1⟩ : Fin 512) c) (fun b hb => ?_) ?_
    · match b with
      | ⟨0, _⟩ => exact absurd rfl hb
      | ⟨1, _⟩ => rfl
    · show 0 + q.val = q.val
      omega
  · rw [dif_neg h1]
    by_cases h2 : q.val < 768
    · rw [dif_pos h2]
      refine concatenate_apply_piece (t := S1024x256) (0 : Fin 2) [⟨S512x256, A⟩, ⟨S256x256, B⟩, ⟨S256x256, C⟩]
        concatenates_S512x256_S256x256_S256x256_S1024x256_d0 (ix2 q c)
        1 (by show (1 : Nat) < 3; omega) S256x256 B rfl rfl 512 rfl (ix2 (⟨q.val - 512, by omega⟩ : Fin 256) c)
        (fun b hb => ?_) ?_
      · match b with
        | ⟨0, _⟩ => exact absurd rfl hb
        | ⟨1, _⟩ => rfl
      · show 512 + (q.val - 512) = q.val
        omega
    · rw [dif_neg h2]
      refine concatenate_apply_piece (t := S1024x256) (0 : Fin 2) [⟨S512x256, A⟩, ⟨S256x256, B⟩, ⟨S256x256, C⟩]
        concatenates_S512x256_S256x256_S256x256_S1024x256_d0 (ix2 q c)
        2 (by show (2 : Nat) < 3; omega) S256x256 C rfl rfl 768 rfl
        (ix2 (⟨q.val - 768, by have := q.isLt; omega⟩ : Fin 256) c) (fun b hb => ?_) ?_
      · match b with
        | ⟨0, _⟩ => exact absurd rfl hb
        | ⟨1, _⟩ => rfl
      · show 768 + (q.val - 768) = q.val
        omega

/-- Entry `(q, c)` of the merged matrix is `mergedW q c`. -/
theorem pay4_apply (P3 P4 : FVec Ideal S768x256 .f32) (q : Fin 1024) (c : Fin 256) :
    k0_pay4 (F := Ideal) P3 P4 (ix2 q c) = mergedW (fun q c => P3 (ix2 q c)) (fun q c => P4 (ix2 q c)) q c := by
  unfold k0_pay4 mergedW
  refine (stack3_apply _ _ _ q c).trans ?_
  by_cases h1 : q.val < 512
  · rw [dif_pos h1, dif_pos h1]
    show extractStridedSlice S512x256 ![0, 0] (swapV P3) slices_S768x256_o0_0_S512x256 (ix2 (⟨q.val, h1⟩ : Fin 512) c)
        + extractStridedSlice S512x256 ![0, 0] P4 slices_S768x256_o0_0_S512x256 (ix2 (⟨q.val, h1⟩ : Fin 512) c) = _
    rw [slice2_axis0_apply 0 (swapV P3) slices_S768x256_o0_0_S512x256 (⟨q.val, h1⟩ : Fin 512) c (⟨q.val, by omega⟩ : Fin 768)
          (by show q.val = 0 + q.val; omega),
        slice2_axis0_apply 0 P4 slices_S768x256_o0_0_S512x256 (⟨q.val, h1⟩ : Fin 512) c (⟨q.val, by omega⟩ : Fin 768)
          (by show q.val = 0 + q.val; omega),
        swapcols_apply]
  · rw [dif_neg h1, dif_neg h1]
    by_cases h2 : q.val < 768
    · rw [dif_pos h2, dif_pos h2]
      show extractStridedSlice S256x256 ![512, 0] (swapV P3) slices_S768x256_o512_0_S256x256
          (ix2 (⟨q.val - 512, by omega⟩ : Fin 256) c) = _
      rw [slice2_axis0_apply 512 (swapV P3) slices_S768x256_o512_0_S256x256 (⟨q.val - 512, by omega⟩ : Fin 256) c
            (⟨q.val, by omega⟩ : Fin 768) (by show q.val = 512 + (q.val - 512); omega),
          swapcols_apply]
    · rw [dif_neg h2, dif_neg h2]
      exact slice2_axis0_apply 512 P4 slices_S768x256_o512_0_S256x256
        (⟨q.val - 768, by have := q.isLt; omega⟩ : Fin 256) c
        (⟨q.val - 256, by have := q.isLt; omega⟩ : Fin 768) (by show q.val - 256 = 512 + (q.val - 768); omega)

/-- Three rows of 512, 256 and 256 columns laid side by side, at `(0, q)`: the row whose columns hold `q`, at `q` less
    the columns before it. -/
theorem side3_apply (A : FVec Ideal S1x512 .f32) (B C : FVec Ideal S1x256 .f32) (q : Fin 1024) :
    concatenate S1x1024 1 [⟨S1x512, A⟩, ⟨S1x256, B⟩, ⟨S1x256, C⟩]
        concatenates_S1x512_S1x256_S1x256_S1x1024_d1 (ix2 (0 : Fin 1) q)
      = if h : q.val < 512 then A (ix2 (0 : Fin 1) (⟨q.val, h⟩ : Fin 512))
        else if h' : q.val < 768 then B (ix2 (0 : Fin 1) (⟨q.val - 512, by omega⟩ : Fin 256))
        else C (ix2 (0 : Fin 1) (⟨q.val - 768, by have := q.isLt; omega⟩ : Fin 256)) := by
  by_cases h1 : q.val < 512
  · rw [dif_pos h1]
    refine concatenate_apply_piece (t := S1x1024) (1 : Fin 2) [⟨S1x512, A⟩, ⟨S1x256, B⟩, ⟨S1x256, C⟩]
      concatenates_S1x512_S1x256_S1x256_S1x1024_d1 (ix2 (0 : Fin 1) q)
      0 (by show (0 : Nat) < 3; omega) S1x512 A rfl rfl 0 rfl (ix2 (0 : Fin 1) (⟨q.val, h1⟩ : Fin 512)) (fun b hb => ?_) ?_
    · match b with
      | ⟨0, _⟩ => rfl
      | ⟨1, _⟩ => exact absurd rfl hb
    · show 0 + q.val = q.val
      omega
  · rw [dif_neg h1]
    by_cases h2 : q.val < 768
    · rw [dif_pos h2]
      refine concatenate_apply_piece (t := S1x1024) (1 : Fin 2) [⟨S1x512, A⟩, ⟨S1x256, B⟩, ⟨S1x256, C⟩]
        concatenates_S1x512_S1x256_S1x256_S1x1024_d1 (ix2 (0 : Fin 1) q)
        1 (by show (1 : Nat) < 3; omega) S1x256 B rfl rfl 512 rfl
        (ix2 (0 : Fin 1) (⟨q.val - 512, by omega⟩ : Fin 256)) (fun b hb => ?_) ?_
      · match b with
        | ⟨0, _⟩ => rfl
        | ⟨1, _⟩ => exact absurd rfl hb
      · show 512 + (q.val - 512) = q.val
        omega
    · rw [dif_neg h2]
      refine concatenate_apply_piece (t := S1x1024) (1 : Fin 2) [⟨S1x512, A⟩, ⟨S1x256, B⟩, ⟨S1x256, C⟩]
        concatenates_S1x512_S1x256_S1x256_S1x1024_d1 (ix2 (0 : Fin 1) q)
        2 (by show (2 : Nat) < 3; omega) S1x256 C rfl rfl 768 rfl
        (ix2 (0 : Fin 1) (⟨q.val - 768, by have := q.isLt; omega⟩ : Fin 256)) (fun b hb => ?_) ?_
      · match b with
        | ⟨0, _⟩ => rfl
        | ⟨1, _⟩ => exact absurd rfl hb
      · show 768 + (q.val - 768) = q.val
        omega

/-- Entry `q` of the merged bias row is `mergedB q`. -/
theorem pay3_apply (P1 P2 : FVec Ideal S1x768 .f32) (q : Fin 1024) :
    k0_pay3 (F := Ideal) P1 P2 (ix2 (0 : Fin 1) q)
      = mergedB (fun q => P1 (ix2 (0 : Fin 1) q)) (fun q => P2 (ix2 (0 : Fin 1) q)) q := by
  unfold k0_pay3 mergedB
  refine (side3_apply _ _ _ q).trans ?_
  by_cases h1 : q.val < 512
  · rw [dif_pos h1, dif_pos h1]
    show extractStridedSlice S1x512 ![0, 0] (shapeCast S1x768 P1 shapeCasts_S1x768_S1x768) slices_S1x768_o0_0_S1x512
          (ix2 (0 : Fin 1) (⟨q.val, h1⟩ : Fin 512))
        + extractStridedSlice S1x512 ![0, 0] (shapeCast S1x768 P2 shapeCasts_S1x768_S1x768) slices_S1x768_o0_0_S1x512
          (ix2 (0 : Fin 1) (⟨q.val, h1⟩ : Fin 512)) = _
    rw [shapeCast_self P1, shapeCast_self P2,
        slice2_axis1_apply 0 P1 slices_S1x768_o0_0_S1x512 (0 : Fin 1) (⟨q.val, h1⟩ : Fin 512) (⟨q.val, by omega⟩ : Fin 768)
          (by show q.val = 0 + q.val; omega),
        slice2_axis1_apply 0 P2 slices_S1x768_o0_0_S1x512 (0 : Fin 1) (⟨q.val, h1⟩ : Fin 512) (⟨q.val, by omega⟩ : Fin 768)
          (by show q.val = 0 + q.val; omega)]
  · rw [dif_neg h1, dif_neg h1]
    by_cases h2 : q.val < 768
    · rw [dif_pos h2, dif_pos h2]
      show extractStridedSlice S1x256 ![0, 512] (shapeCast S1x768 P1 shapeCasts_S1x768_S1x768) slices_S1x768_o0_512_S1x256
          (ix2 (0 : Fin 1) (⟨q.val - 512, by omega⟩ : Fin 256)) = _
      rw [shapeCast_self P1]
      exact slice2_axis1_apply 512 P1 slices_S1x768_o0_512_S1x256 (0 : Fin 1) (⟨q.val - 512, by omega⟩ : Fin 256)
        (⟨q.val, by omega⟩ : Fin 768) (by show q.val = 512 + (q.val - 512); omega)
    · rw [dif_neg h2, dif_neg h2]
      show extractStridedSlice S1x256 ![0, 512] (shapeCast S1x768 P2 shapeCasts_S1x768_S1x768) slices_S1x768_o0_512_S1x256
          (ix2 (0 : Fin 1) (⟨q.val - 768, by have := q.isLt; omega⟩ : Fin 256)) = _
      rw [shapeCast_self P2]
      exact slice2_axis1_apply 512 P2 slices_S1x768_o0_512_S1x256 (0 : Fin 1)
        (⟨q.val - 768, by have := q.isLt; omega⟩ : Fin 256)
        (⟨q.val - 256, by have := q.isLt; omega⟩ : Fin 768) (by show q.val - 256 = 512 + (q.val - 768); omega)

/-! ## After the rounds -/

/-- The first layer after the rounds: the rows against the transposed layer matrix, plus its bias row over the rows. -/
def fcV (u : FVec Ideal S1024x256 .f32) (W5 : FVec Ideal S256x256 .bf16) (fcb : FVec Ideal S1x256 .f32) :
    FVec Ideal S1024x256 .f32 :=
  addf (matmul dot_S1024x256_S256x256_S1024x256_1_1_0_0_n_n none (truncf .bf16 u bitsLt_bf16_f32) W5
      (constant (F := Ideal) S1024x256 .f32 0x00000000#32))
    (broadcastTo S1024x256 (shapeCast S1x256 fcb shapeCasts_S1x256_S1x256) broadcasts_S1x256_S1024x256)

/-- Entry `(p, f)` of the first layer: row `p` against row `f` of the layer matrix, plus the bias at `f`. -/
theorem fcV_apply (u : FVec Ideal S1024x256 .f32) (W5 : FVec Ideal S256x256 .bf16) (fcb : FVec Ideal S1x256 .f32)
    (p : Fin 1024) (f : Fin 256) :
    fcV u W5 fcb (ix2 p f) = (∑ c : Fin 256, u (ix2 p c) * W5 (ix2 f c)) + fcb (ix2 (0 : Fin 1) f) := by
  show matmul dot_S1024x256_S256x256_S1024x256_1_1_0_0_n_n none (truncf .bf16 u bitsLt_bf16_f32) W5
        (constant (F := Ideal) S1024x256 .f32 0x00000000#32) (ix2 p f)
      + broadcastTo S1024x256 (shapeCast S1x256 fcb shapeCasts_S1x256_S1x256) broadcasts_S1x256_S1024x256 (ix2 p f) = _
  rw [fc_matmul_apply, broadcastTo_1b_ab_apply, shapeCast_self fcb]
  rfl

/-- The maximum with zero, the product with the last layer's row, and the sum along row `p`. -/
theorem tail_apply (A : FVec Ideal S1024x256 .f32) (P7 : FVec Ideal S1x256 .f32) (p : Fin 1024) :
    multiReduction .add [1] S1024
        (mulf (maximumf A (k0_pay10 (F := Ideal))) (broadcastTo S1024x256 P7 broadcasts_S1x256_S1024x256))
        0x00000000#32 reduces_S1024x256_S1024 (.inl rfl) rfl (ix1 p)
      = ∑ f : Fin 256, max (A (ix2 p f)) zero * P7 (ix2 (0 : Fin 1) f) := by
  refine (lane_sum_apply _ p).trans (Finset.sum_congr rfl fun f _ => ?_)
  show max (A (ix2 p f)) (k0_pay10 (F := Ideal) (ix2 p f))
      * broadcastTo S1024x256 P7 broadcasts_S1x256_S1024x256 (ix2 p f) = _
  rw [broadcastTo_1b_ab_apply]
  rfl

/-- The kernel's long payload, given round 1's reset gate `r` and `t`: the blend of round 1, all of round 2 over its
    own gate block, and the first layer after the rounds. -/
theorem pay9_eq (h : FVec Ideal S1024x256 .f32) (gbv : FVec Ideal S1x1024 .f32) (M : FVec Ideal S1024x256 .bf16)
    (W5 : FVec Ideal S256x256 .bf16) (G : FVec Ideal S1024x1024 .f32) (r t : FVec Ideal S1024x256 .f32)
    (fcb : FVec Ideal S1x256 .f32) :
    k0_pay9 (F := Ideal) h gbv M W5 G r t fcb
      = fcV (roundV (blendV h G r t) (gatesV (blendV h G r t) M gbv)) W5 fcb := rfl

/-- Entry `(p, f)` of the long payload, round 1's gate block being that of the rows themselves: two rounds of
    `stepK` on row `p`, then the first layer. -/
theorem pay9_apply (h : FVec Ideal S1024x256 .f32) (gbv : FVec Ideal S1x1024 .f32) (M : FVec Ideal S1024x256 .bf16)
    (W5 : FVec Ideal S256x256 .bf16) (fcb : FVec Ideal S1x256 .f32) (p : Fin 1024) (f : Fin 256) :
    k0_pay9 (F := Ideal) h gbv M W5 (gatesV h M gbv) (rV (gatesV h M gbv)) (tV (gatesV h M gbv)) fcb (ix2 p f)
      = (∑ c : Fin 256,
            stepK (stepK (fun c => h (ix2 p c)) (fun q c => M (ix2 q c)) (fun q => gbv (ix2 (0 : Fin 1) q)))
              (fun q c => M (ix2 q c)) (fun q => gbv (ix2 (0 : Fin 1) q)) c * W5 (ix2 f c))
          + fcb (ix2 (0 : Fin 1) f) := by
  have h1 : ∀ c' : Fin 256, roundV h (gatesV h M gbv) (ix2 p c')
      = stepK (fun c => h (ix2 p c)) (fun q c => M (ix2 q c)) (fun q => gbv (ix2 (0 : Fin 1) q)) c' :=
    fun c' => roundV_apply h (gatesV h M gbv) p _ _ _ (fun _ => rfl) (fun q => gatesV_apply h M gbv p q) c'
  have hG2 : ∀ q : Fin 1024, gatesV (roundV h (gatesV h M gbv)) M gbv (ix2 p q)
      = gateK (stepK (fun c => h (ix2 p c)) (fun q c => M (ix2 q c)) (fun q => gbv (ix2 (0 : Fin 1) q)))
          (fun q c => M (ix2 q c)) (fun q => gbv (ix2 (0 : Fin 1) q)) q :=
    fun q => (gatesV_apply (roundV h (gatesV h M gbv)) M gbv p q).trans
      (congrArg (fun y => gateK y (fun q c => M (ix2 q c)) (fun q => gbv (ix2 (0 : Fin 1) q)) q) (funext h1))
  rw [pay9_eq]
  refine (fcV_apply _ W5 fcb p f).trans ?_
  refine congrArg (fun s => s + fcb (ix2 (0 : Fin 1) f)) (Finset.sum_congr rfl fun c _ => ?_)
  refine congrArg (fun s => s * W5 (ix2 f c)) ?_
  exact roundV_apply (roundV h (gatesV h M gbv)) (gatesV (roundV h (gatesV h M gbv)) M gbv) p _ _ _ h1 hG2 c

/-! ## The row of the output block -/

/-- Row `p` of the block the kernel body leaves is `netK` of row `p` of the input block. -/
theorem E9_row (P0 : Vec Ideal S1024x256 .f32) (P1 P2 : Vec Ideal S1x768 .f32) (P3 P4 : Vec Ideal S768x256 .f32)
    (P5 : Vec Ideal S256x256 .f32) (P6 P7 : Vec Ideal S1x256 .f32) (P8 : Vec Ideal S1x1 .f32) (p : Fin 1024) :
    Cert.KernelIdeal.ValueP.E9 (F := Ideal) P0 P1 P2 P3 P4 P5 P6 P7 P8 (ix2 p (0 : Fin 1))
      = netK (fun c => P0 (ix2 p c)) (fun q c => P3 (ix2 q c)) (fun q c => P4 (ix2 q c))
          (fun q => P1 (ix2 (0 : Fin 1) q)) (fun q => P2 (ix2 (0 : Fin 1) q)) (fun f c => P5 (ix2 f c))
          (fun f => P6 (ix2 (0 : Fin 1) f)) (fun f => P7 (ix2 (0 : Fin 1) f)) (P8 (ix2 (0 : Fin 1) (0 : Fin 1))) := by
  -- the two indices the block index is read at
  have e0 : Cert.KernelIdeal.ValueP.ix9_0 (ix2 p (0 : Fin 1)) = ix1 p := by
    funext a
    match a with
    | ⟨0, _⟩ => rfl
  have e1 : Cert.KernelIdeal.ValueP.ix9_1 (ix2 p (0 : Fin 1)) = ix2 (0 : Fin 1) (0 : Fin 1) := by
    funext a
    match a with
    | ⟨0, _⟩ => rfl
    | ⟨1, _⟩ => rfl
  -- round 1's gate block is the gate block of the rows themselves
  have e6 : k0_pay6 (F := Ideal) P0 P3 P4 P1 P2 = gatesV P0 (k0_pay4 P3 P4) (k0_pay3 P1 P2) := by
    show gatesV (shapeCast S1024x256 P0 shapeCasts_S1024x256_S1024x256) (k0_pay4 P3 P4) (k0_pay3 P1 P2) = _
    rw [shapeCast_self P0]
  -- the merged matrix and bias, as functions
  have eM : (fun (q : Fin 1024) (c : Fin 256) => k0_pay4 (F := Ideal) P3 P4 (ix2 q c))
      = mergedW (fun q c => P3 (ix2 q c)) (fun q c => P4 (ix2 q c)) :=
    funext fun q => funext fun c => pay4_apply P3 P4 q c
  have eB : (fun (q : Fin 1024) => k0_pay3 (F := Ideal) P1 P2 (ix2 (0 : Fin 1) q))
      = mergedB (fun q => P1 (ix2 (0 : Fin 1) q)) (fun q => P2 (ix2 (0 : Fin 1) q)) :=
    funext fun q => pay3_apply P1 P2 q
  show (multiReduction .add [1] S1024
          (mulf (maximumf
              (k0_pay9 (shapeCast S1024x256 P0 shapeCasts_S1024x256_S1024x256) (k0_pay3 P1 P2) (k0_pay4 P3 P4)
                (truncf .bf16 P5 bitsLt_bf16_f32) (k0_pay6 P0 P3 P4 P1 P2) (rV (k0_pay6 P0 P3 P4 P1 P2))
                (tV (k0_pay6 P0 P3 P4 P1 P2)) P6)
              (k0_pay10 (F := Ideal)))
            (broadcastTo S1024x256 P7 broadcasts_S1x256_S1024x256))
          0x00000000#32 reduces_S1024x256_S1024 (.inl rfl) rfl (Cert.KernelIdeal.ValueP.ix9_0 (ix2 p (0 : Fin 1))))
      + P8 (Cert.KernelIdeal.ValueP.ix9_1 (ix2 p (0 : Fin 1))) = _
  rw [e0, e1, tail_apply, shapeCast_self P0, e6]
  unfold netK head
  refine congrArg (fun s => s + P8 (ix2 (0 : Fin 1) (0 : Fin 1))) (Finset.sum_congr rfl fun f _ => ?_)
  refine congrArg (fun s => max s zero * P7 (ix2 (0 : Fin 1) f)) ?_
  refine (pay9_apply P0 (k0_pay3 P1 P2) (k0_pay4 P3 P4) (truncf .bf16 P5 bitsLt_bf16_f32) P6 p f).trans ?_
  rw [eM, eB]
  rfl

end Cert.GruNet.Kern

end
-- ==== Proof.KernelArray.lean ====
/-
  The kernel's result array, whole: entry `(b, 0)` is the network of batch row `b` in the kernel's arrangement.

  The grid has four points; point `t` stages rows `1024 t … 1024 t + 1023` of the flattened features and the whole of
  every parameter array (the biases and the last layer's bias as one-row matrices, reshaped on the host before the
  call), and writes back rows `1024 t … 1024 t + 1023` of the result. Row `p` of what it writes is the network of row
  `p` of its feature block; a row of the flattened features `[4096, 256]` is the two nodes' features side by side
  (`rowOf`); the four blocks cover the result array, so the array is that function of the arguments at every row.
-/
import proofs.«152082_g6846177870363_cont_9to1c4b_865_4_alg».proof.Proof.KernelValue
import proofs.«152082_g6846177870363_cont_9to1c4b_865_4_alg».proof.Proof.Spec
import proofs.«152082_g6846177870363_cont_9to1c4b_865_4_alg».proof.Proof.KernelRow
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.StableHlo
open Idealize.ShloMosaic.Pipeline (Dat)

namespace Cert.GruNet.Arr

open Cert.KernelIdeal Cert.KernelIdeal.Gen Cert.KernelIdeal.ValueP Idealize.ShloMosaic.ValueIdx Cert.GruNet

variable (m : (ℓ : Loc nD τ sig) → Buf (Elt Ideal) ℓ) (ρ : Dev nD → PrngReg)

/-- The nine argument arrays on core `c`, as functions of their indices. -/
abbrev feat (c : Dev nD) : S4096x2x128.Idx → EReal := m ((c : Thread nD τ).loc main_arg0)
abbrev wih (c : Dev nD) : S768x256.Idx → EReal := m ((c : Thread nD τ).loc main_arg1)
abbrev whh (c : Dev nD) : S768x256.Idx → EReal := m ((c : Thread nD τ).loc main_arg2)
abbrev bih (c : Dev nD) : S768.Idx → EReal := m ((c : Thread nD τ).loc main_arg3)
abbrev bhh (c : Dev nD) : S768.Idx → EReal := m ((c : Thread nD τ).loc main_arg4)
abbrev fcw (c : Dev nD) : S256x256.Idx → EReal := m ((c : Thread nD τ).loc main_arg5)
abbrev fcb (c : Dev nD) : S256.Idx → EReal := m ((c : Thread nD τ).loc main_arg6)
abbrev l2w (c : Dev nD) : S1x256.Idx → EReal := m ((c : Thread nD τ).loc main_arg7)
abbrev l2b (c : Dev nD) : S1.Idx → EReal := m ((c : Thread nD τ).loc main_arg8)

/-- The result array: at `(b, 0)` the network of batch row `b` of the arguments. -/
def result (c : Dev nD) : S4096x1.Idx → EReal := fun i =>
  outK (feat m c) (wih m c) (whh m c) (bih m c) (bhh m c) (fcw m c) (fcb m c) (l2w m c) (l2b m c) ⟨(i 0).val, idx2_lt0 i⟩

theorem hz : (![0, 0] : Fin 2 → Nat) = fun _ => 0 := funext fun a => by fin_cases a <;> rfl

/-! ## The arrays the region finds: the five host reshapes -/

theorem V_v0 (c : Dev nD) : (V m c main_call0_v0 : S4096x256.Idx → EReal) = shapeCast S4096x256 (feat m c) shapeCasts_S4096x2x128_S4096x256 := by
  dsimp only [V, hostOps0]; after_results; rfl
theorem V_v1 (c : Dev nD) : (V m c main_call0_v1 : S1x768.Idx → EReal) = shapeCast S1x768 (bih m c) shapeCasts_S768_S1x768 := by
  dsimp only [V, hostOps0]; after_results; rfl
theorem V_v2 (c : Dev nD) : (V m c main_call0_v2 : S1x768.Idx → EReal) = shapeCast S1x768 (bhh m c) shapeCasts_S768_S1x768 := by
  dsimp only [V, hostOps0]; after_results; rfl
theorem V_v3 (c : Dev nD) : (V m c main_call0_v3 : S1x256.Idx → EReal) = shapeCast S1x256 (fcb m c) shapeCasts_S256_S1x256 := by
  dsimp only [V, hostOps0]; after_results; rfl
theorem V_v4 (c : Dev nD) : (V m c main_call0_v4 : S1x1.Idx → EReal) = shapeCast S1x1 (l2b m c) shapeCasts_S1_S1x1 := by
  dsimp only [V, hostOps0]; after_results; rfl

/-! ## The windows' blocks as pieces of the arrays -/

/-- The printed index maps, decided over the four grid points: window 0 moves one block of rows per point, the
    parameter windows stay at block (0, 0). -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)

/-- Window 0's block at point `t` is rows `1024 t … 1024 t + 1023` of the flattened features. -/
theorem iblk0_apply (c : Dev nD) (t : Fin cfg0.N) (x : S1024x256.Idx) (k : S4096x256.Idx)
    (hk0 : (k 0).val = 1024 * t.val + (x 0).val) (hk1 : (k 1).val = (x 1).val) :
    (iblk m c 0 t : Vec Ideal S1024x256 .f32) x = (V m c main_call0_v0 : S4096x256.Idx → EReal) k := by
  have hi := idx0 t
  unfold iblk
  rw [View.read_apply]
  show V m c main_call0_v0 _ = V m c main_call0_v0 k
  refine congrArg (V m c main_call0_v0) (funext fun a => Fin.ext ?_)
  match a with
  | ⟨0, _⟩ => show win0_0.index t 0 * 1024 + 1 * (x 0).val = (k 0).val; rw [hi.1, hk0]; omega
  | ⟨1, _⟩ => show win0_0.index t 1 * 256 + 1 * (x 1).val = (k 1).val; rw [hi.2, hk1]; omega

/-- Window 1's block is the whole of its array at every point. -/
theorem iblk1_eq (c : Dev nD) (t : Fin cfg0.N) :
    (iblk m c 1 t : Vec Ideal S768x256 .f32) = (V m c main_arg1 : S768x256.Idx → EReal) := by
  have hi := idx1 t
  funext x
  unfold iblk
  rw [View.read_apply]
  show V m c main_arg1 _ = V m c main_arg1 x
  refine congrArg (V m c main_arg1) (funext fun a => Fin.ext ?_)
  match a with
  | ⟨0, _⟩ => show win0_1.index t 0 * 768 + 1 * (x 0).val = (x 0).val; rw [hi.1]; omega
  | ⟨1, _⟩ => show win0_1.index t 1 * 256 + 1 * (x 1).val = (x 1).val; rw [hi.2]; omega

/-- Window 2's block is the whole of its array at every point. -/
theorem iblk2_eq (c : Dev nD) (t : Fin cfg0.N) :
    (iblk m c 2 t : Vec Ideal S768x256 .f32) = (V m c main_arg2 : S768x256.Idx → EReal) := by
  have hi := idx2 t
  funext x
  unfold iblk
  rw [View.read_apply]
  show V m c main_arg2 _ = V m c main_arg2 x
  refine congrArg (V m c main_arg2) (funext fun a => Fin.ext ?_)
  match a with
  | ⟨0, _⟩ => show win0_2.index t 0 * 768 + 1 * (x 0).val = (x 0).val; rw [hi.1]; omega
  | ⟨1, _⟩ => show win0_2.index t 1 * 256 + 1 * (x 1).val = (x 1).val; rw [hi.2]; omega

/-- Window 3's block is the whole of its array at every point. -/
theorem iblk3_eq (c : Dev nD) (t : Fin cfg0.N) :
    (iblk m c 3 t : Vec Ideal S1x768 .f32) = (V m c main_call0_v1 : S1x768.Idx → EReal) := by
  have hi := idx3 t
  funext x
  unfold iblk
  rw [View.read_apply]
  show V m c main_call0_v1 _ = V m c main_call0_v1 x
  refine congrArg (V m c main_call0_v1) (funext fun a => Fin.ext ?_)
  match a with
  | ⟨0, _⟩ => show win0_3.index t 0 * 1 + 1 * (x 0).val = (x 0).val; rw [hi.1]; omega
  | ⟨1, _⟩ => show win0_3.index t 1 * 768 + 1 * (x 1).val = (x 1).val; rw [hi.2]; omega

/-- Window 4's block is the whole of its array at every point. -/
theorem iblk4_eq (c : Dev nD) (t : Fin cfg0.N) :
    (iblk m c 4 t : Vec Ideal S1x768 .f32) = (V m c main_call0_v2 : S1x768.Idx → EReal) := by
  have hi := idx4 t
  funext x
  unfold iblk
  rw [View.read_apply]
  show V m c main_call0_v2 _ = V m c main_call0_v2 x
  refine congrArg (V m c main_call0_v2) (funext fun a => Fin.ext ?_)
  match a with
  | ⟨0, _⟩ => show win0_4.index t 0 * 1 + 1 * (x 0).val = (x 0).val; rw [hi.1]; omega
  | ⟨1, _⟩ => show win0_4.index t 1 * 768 + 1 * (x 1).val = (x 1).val; rw [hi.2]; omega

/-- Window 5's block is the whole of its array at every point. -/
theorem iblk5_eq (c : Dev nD) (t : Fin cfg0.N) :
    (iblk m c 5 t : Vec Ideal S256x256 .f32) = (V m c main_arg5 : S256x256.Idx → EReal) := by
  have hi := idx5 t
  funext x
  unfold iblk
  rw [View.read_apply]
  show V m c main_arg5 _ = V m c main_arg5 x
  refine congrArg (V m c main_arg5) (funext fun a => Fin.ext ?_)
  match a with
  | ⟨0, _⟩ => show win0_5.index t 0 * 256 + 1 * (x 0).val = (x 0).val; rw [hi.1]; omega
  | ⟨1, _⟩ => show win0_5.index t 1 * 256 + 1 * (x 1).val = (x 1).val; rw [hi.2]; omega

/-- Window 6's block is the whole of its array at every point. -/
theorem iblk6_eq (c : Dev nD) (t : Fin cfg0.N) :
    (iblk m c 6 t : Vec Ideal S1x256 .f32) = (V m c main_call0_v3 : S1x256.Idx → EReal) := by
  have hi := idx6 t
  funext x
  unfold iblk
  rw [View.read_apply]
  show V m c main_call0_v3 _ = V m c main_call0_v3 x
  refine congrArg (V m c main_call0_v3) (funext fun a => Fin.ext ?_)
  match a with
  | ⟨0, _⟩ => show win0_6.index t 0 * 1 + 1 * (x 0).val = (x 0).val; rw [hi.1]; omega
  | ⟨1, _⟩ => show win0_6.index t 1 * 256 + 1 * (x 1).val = (x 1).val; rw [hi.2]; omega

/-- Window 7's block is the whole of its array at every point. -/
theorem iblk7_eq (c : Dev nD) (t : Fin cfg0.N) :
    (iblk m c 7 t : Vec Ideal S1x256 .f32) = (V m c main_arg7 : S1x256.Idx → EReal) := by
  have hi := idx7 t
  funext x
  unfold iblk
  rw [View.read_apply]
  show V m c main_arg7 _ = V m c main_arg7 x
  refine congrArg (V m c main_arg7) (funext fun a => Fin.ext ?_)
  match a with
  | ⟨0, _⟩ => show win0_7.index t 0 * 1 + 1 * (x 0).val = (x 0).val; rw [hi.1]; omega
  | ⟨1, _⟩ => show win0_7.index t 1 * 256 + 1 * (x 1).val = (x 1).val; rw [hi.2]; omega

/-- Window 8's block is the whole of its array at every point. -/
theorem iblk8_eq (c : Dev nD) (t : Fin cfg0.N) :
    (iblk m c 8 t : Vec Ideal S1x1 .f32) = (V m c main_call0_v4 : S1x1.Idx → EReal) := by
  have hi := idx8 t
  funext x
  unfold iblk
  rw [View.read_apply]
  show V m c main_call0_v4 _ = V m c main_call0_v4 x
  refine congrArg (V m c main_call0_v4) (funext fun a => Fin.ext ?_)
  match a with
  | ⟨0, _⟩ => show win0_8.index t 0 * 1 + 1 * (x 0).val = (x 0).val; rw [hi.1]; omega
  | ⟨1, _⟩ => show win0_8.index t 1 * 1 + 1 * (x 1).val = (x 1).val; rw [hi.2]; omega

/-! ## What a point writes back -/

/-- The network depends on its nine arguments only. -/
theorem netK_congr {x x' : Fin 256 → EReal} {Wih Wih' Whh Whh' : Fin 768 → Fin 256 → EReal} {bi bi' bh bh' : Fin 768 → EReal}
    {fW fW' : Fin 256 → Fin 256 → EReal} {fb fb' : Fin 256 → EReal} {lW lW' : Fin 256 → EReal} {lb lb' : EReal}
    (h0 : x = x') (h1 : Wih = Wih') (h2 : Whh = Whh') (h3 : bi = bi') (h4 : bh = bh') (h5 : fW = fW') (h6 : fb = fb')
    (h7 : lW = lW') (h8 : lb = lb') :
    netK x Wih Whh bi bh fW fb lW lb = netK x' Wih' Whh' bi' bh' fW' fb' lW' lb' := by
  subst h0 h1 h2 h3 h4 h5 h6 h7 h8; rfl

/-- Row `p` of what point `t` leaves in the output block is the network of batch row `1024 t + p`. -/
theorem block_row (c : Dev nD) (t : Fin cfg0.N) (p : Fin 1024) (b : Fin 4096) (hb : b.val = 1024 * t.val + p.val) :
    E9 (F := Ideal) (iblk m c 0 t) (iblk m c 3 t) (iblk m c 4 t) (iblk m c 1 t) (iblk m c 2 t) (iblk m c 5 t) (iblk m c 6 t)
        (iblk m c 7 t) (iblk m c 8 t) (ix2 p (0 : Fin 1))
      = outK (feat m c) (wih m c) (whh m c) (bih m c) (bhh m c) (fcw m c) (fcb m c) (l2w m c) (l2b m c) b := by
  refine (Cert.GruNet.Kern.E9_row (iblk m c 0 t) (iblk m c 3 t) (iblk m c 4 t) (iblk m c 1 t) (iblk m c 2 t) (iblk m c 5 t) (iblk m c 6 t)
    (iblk m c 7 t) (iblk m c 8 t) p).trans ?_
  unfold outK
  refine netK_congr ?_ ?_ ?_ ?_ ?_ ?_ ?_ ?_ ?_
  · funext cc
    refine (iblk0_apply m c t (ix2 p cc) (ix2 b cc) hb rfl).trans ?_
    rw [V_v0]
    exact shapeCast_apply _ _ (ix2 b cc) (ix3 b (⟨cc.val / 128, by omega⟩ : Fin 2) (⟨cc.val % 128, by omega⟩ : Fin 128))
      (by rw [Shape.rowMajor_val_three, Shape.rowMajor_val_two]
          show (b.val * 2 + cc.val / 128) * 128 + cc.val % 128 = b.val * 256 + cc.val; omega)
  · funext q cc; rw [iblk1_eq, V_main_arg1]
  · funext q cc; rw [iblk2_eq, V_main_arg2]
  · funext q; rw [iblk3_eq, V_v1]
    exact shapeCast_apply _ _ (ix2 (0 : Fin 1) q) (ix1 q)
      (by rw [Shape.rowMajor_val_one, Shape.rowMajor_val_two]; show q.val = 0 * 768 + q.val; omega)
  · funext q; rw [iblk4_eq, V_v2]
    exact shapeCast_apply _ _ (ix2 (0 : Fin 1) q) (ix1 q)
      (by rw [Shape.rowMajor_val_one, Shape.rowMajor_val_two]; show q.val = 0 * 768 + q.val; omega)
  · funext f cc; rw [iblk5_eq, V_main_arg5]
  · funext f; rw [iblk6_eq, V_v3]
    exact shapeCast_apply _ _ (ix2 (0 : Fin 1) f) (ix1 f)
      (by rw [Shape.rowMajor_val_one, Shape.rowMajor_val_two]; show f.val = 0 * 256 + f.val; omega)
  · funext f; rw [iblk7_eq, V_main_arg7]
  · rw [iblk8_eq, V_v4]
    exact shapeCast_apply _ _ (ix2 (0 : Fin 1) (0 : Fin 1)) (ix1 (0 : Fin 1))
      (by rw [Shape.rowMajor_val_one, Shape.rowMajor_val_two]; rfl)

theorem idx9 : ∀ t : Fin cfg0.N, win0_9.index t 0 = t.val ∧ win0_9.index t 1 = 0 :=
  (by decide +kernel : ∀ t : Fin grid0.N, win0_9.index t 0 = t.val ∧ win0_9.index t 1 = 0)

/-- What point `t` writes back is block `t` of `result`. -/
theorem flushed_eq (c : Dev nD) (t : Fin cfg0.N) :
    (dats m 0 c).flushed 9 t = ((cfg0.win 9).blk t).view.read (Elt Ideal) (result m c) := by
  rw [flushed9]
  unfold out0_9
  simp only [View.ld_unit_zero (S := S1024x256) hz, View.ld_unit_zero (S := S768x256) hz, View.ld_unit_zero (S := S1x768) hz,
    View.ld_unit_zero (S := S256x256) hz, View.ld_unit_zero (S := S1x256) hz, View.ld_unit_zero (S := S1x1) hz]
  funext y
  obtain ⟨e0, e1⟩ := idx9 t
  have hy0 : (y 0).val < 1024 := (y 0).isLt
  have hy1 : (y 1).val < 1 := (y 1).isLt
  have hN : cfg0.N = 4 := N_0
  have htl : t.val < 4 := by have := t.isLt; omega
  refine (canon9_eq (F := Ideal) _ _ _ _ _ _ _ _ _ y).trans ?_
  rw [View.read_apply]
  have hy : y = ix2 (⟨(y 0).val, hy0⟩ : Fin 1024) (0 : Fin 1) := by
    funext a; apply Fin.ext
    match a with
    | ⟨0, _⟩ => rfl
    | ⟨1, _⟩ => show (y 1).val = 0; omega
  rw [hy]
  refine (block_row m c t ⟨(y 0).val, hy0⟩ ⟨1024 * t.val + (y 0).val, by omega⟩ rfl).trans ?_
  unfold result
  congr 1
  apply Fin.ext
  show 1024 * t.val + (y 0).val = win0_9.index t 0 * 1024 + 1 * (y 0).val
  rw [e0]; omega

/-! ## The array after the run -/

theorem mem_blk9 (t : Fin cfg0.N) (i : S4096x1.Idx) :
    i ∈ ((cfg0.win 9).blk t).view.set ↔ ∀ a : Fin 2, win0_9.index t a * S1024x1.size a ≤ (i a).val ∧ (i a).val < win0_9.index t a * S1024x1.size a + S1024x1.size a := by
  show i ∈ ((View.whole main_v0).slice (win0_9.rect t)).set ↔ _
  rw [View.set_slice_whole, Rect.mem_set_unit]
  exact Iff.rfl

/-- Row `r` of the result lies in the block of point `r / 1024`. -/
theorem cover (i : S4096x1.Idx) : ∃ t : Fin cfg0.N, (cfg0.win 9).flush t = true ∧ i ∈ ((cfg0.win 9).blk t).view.set := by
  have h0 : (i 0).val < 4096 := idx2_lt0 i
  have h1 : (i 1).val < 1 := idx2_lt1 i
  have hN : cfg0.N = 4 := N_0
  refine ⟨⟨(i 0).val / 1024, by rw [hN]; omega⟩, flush0_9 _, ?_⟩
  rw [mem_blk9]
  obtain ⟨e0, e1⟩ := idx9 ⟨(i 0).val / 1024, by rw [hN]; omega⟩
  intro a
  match a with
  | ⟨0, _⟩ =>
    show win0_9.index _ 0 * 1024 ≤ (i 0).val ∧ (i 0).val < win0_9.index _ 0 * 1024 + 1024
    rw [e0]; show (i 0).val / 1024 * 1024 ≤ (i 0).val ∧ (i 0).val < (i 0).val / 1024 * 1024 + 1024; omega
  | ⟨1, _⟩ =>
    show win0_9.index _ 1 * 1 ≤ (i 1).val ∧ (i 1).val < win0_9.index _ 1 * 1 + 1
    rw [e1]; omega

/-- The result array after the run is `result`. -/
theorem final (c : Dev nD) : (dats m 0 c).arrAt 9 cfg0.N = result m c :=
  (dats m 0 c).arrAt_eq_of_cover 9 (result m c) (fun t _ => flushed_eq m c t) cover

/-- The kernel's run, read: the result array at `result`, the nine arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.GruNet.Arr

end
-- ==== Proof.lean ====
/-
  The certificate's five claims for a two-round message-passing network on two-node graphs (a GRU cell fed the
  other node's state, then a linear layer, a ReLU and a linear layer onto one number per sample), computed by one
  kernel over four blocks of 1024 batch rows against the plain reference.

  * The three frames: each program runs to the end, nothing faulting, its nine argument arrays unchanged — the two
    kernels by the generated frame, the reference by its generated run.
  * The idealization rewrote no operation of the kernel.
  * At the ideal values both programs end with the same result array. Every batch row is treated alone. The reference
    applies the cell as written: the input product of the row with its two halves exchanged, the hidden product of the
    row, the gates `1 / (1 + exp (-(gi + gh)))`, the blend `(1 - z) * n + z * x` (Proof/RefSide.lean). The kernel moves the
    exchange onto the columns of the input weights, adds the reset and update rows of the two weight matrices before
    its one product, writes the gates as `1/2 * (1 + tanh (g / 2))` and the blend as `n + z * (x - n)`
    (Proof/KernelRow.lean for one row of a block, Proof/KernelArray.lean for the whole array). The precondition makes
    every argument entry a real number (Proof/Finite.lean), and on real numbers — where multiplication distributes over
    addition — the two arrangements are one function (Proof/Algebra.lean, over the definitions of Proof/Spec.lean).
-/
import proofs.«152082_g6846177870363_cont_9to1c4b_865_4_alg».proof.Defs
import proofs.«152082_g6846177870363_cont_9to1c4b_865_4_alg».proof.Proof.Gen.Kernel
import proofs.«152082_g6846177870363_cont_9to1c4b_865_4_alg».proof.Proof.Gen.Kernel.Frame
import proofs.«152082_g6846177870363_cont_9to1c4b_865_4_alg».proof.Proof.Gen.KernelIdeal
import proofs.«152082_g6846177870363_cont_9to1c4b_865_4_alg».proof.Proof.Gen.KernelIdeal.Frame
import proofs.«152082_g6846177870363_cont_9to1c4b_865_4_alg».proof.Proof.Gen.ReferenceIdeal
import proofs.«152082_g6846177870363_cont_9to1c4b_865_4_alg».proof.Proof.Gen.Pre_finite_inputs
import proofs.«152082_g6846177870363_cont_9to1c4b_865_4_alg».proof.Proof.Gen.ReferenceIdeal.Run
import proofs.«152082_g6846177870363_cont_9to1c4b_865_4_alg».proof.Proof.Gen.ReferenceIdeal.Read
import proofs.«152082_g6846177870363_cont_9to1c4b_865_4_alg».proof.Proof.Spec
import proofs.«152082_g6846177870363_cont_9to1c4b_865_4_alg».proof.Proof.Algebra
import proofs.«152082_g6846177870363_cont_9to1c4b_865_4_alg».proof.Proof.Finite
import proofs.«152082_g6846177870363_cont_9to1c4b_865_4_alg».proof.Proof.RefSide
import proofs.«152082_g6846177870363_cont_9to1c4b_865_4_alg».proof.Proof.KernelArray
import Idealize.ShloMosaic.Adequacy
import Idealize.ShloMosaic.Init

noncomputable section

namespace Cert.Proof.GruClaims

open Idealize.ShloMosaic Idealize.ShloMosaic.TcCoe Idealize.SL.Sem Idealize.ShloMosaic.ValueIdx

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array holding, at row `b`, the network of batch row `b`: the kernel in its merged
    arrangement (`outK`), the reference as written (`outR`); every argument entry is a real number by the precondition, and
    on real data the two arrangements are one function. -/
theorem algebraic : Cert.algebraic_KernelIdeal_ReferenceIdeal := by
  intro m ρ m' ρ' hpre hagree
  refine ⟨fun c => Cert.GruNet.Arr.result m c, Cert.GruNet.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v95_eq]
  obtain ⟨g0, g1, g2, g3, g4, g5, g6, g7, g8⟩ := hagree c
  rw [g0, g1, g2, g3, g4, g5, g6, g7, g8]
  obtain ⟨r0, r1, r2, r3, r4⟩ := Cert.GruNet.Finite.reals_of_pre _ _ _ _ _ _ _ _ _ (hpre c)
  refine funext fun (i : Cert.KernelIdeal.S4096x1.Idx) => ?_
  obtain ⟨b, q, rfl⟩ : ∃ (b : Fin 4096) (q : Fin 1), i = ix2 b q := ⟨i 0, i 1, eq_ix2 i⟩
  obtain rfl : q = 0 := Subsingleton.elim _ _
  refine (Cert.GruNet.Ref.ref_row _ _ _ _ _ _ _ _ _ b).trans ?_
  exact (Cert.GruNet.outK_eq_outR _ _ _ _ _ _ _ _ _ r0 r1 r2 r3 r4 b).symm

end Cert.Proof.GruClaims

namespace Cert.Proof

open Cert.Proof.GruClaims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
